-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S30 : Shape := ⟨1, ![30]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S30 : S_.BroadcastsInDim S30 (![] : Fin 0 → Fin S30.rank)
  reducesTo_S30_S_d0 : S30.ReducesTo [0] S_

variable [Facts]

def fn_part1 {F : FTy → Type} [FloatOps F] (main_v13 : IVec S_ 1) (main_v15 : IVec S30 1) (main_c_5 : IVec S_ 1) : IVec S_ 1 :=
  let main_v16 : IVec S_ 1 := (fun x v => Host.reduce IntOp.andi x v reducesTo_S30_S_d0 h_S_) main_v15 main_c_5
  let main_v17 : IVec S_ 1 := andi main_v13 main_v16
  main_v17

def fn {F : FTy → Type} [FloatOps F] (main_arg0 : FVec F S32x1024x1024 .f32) (main_arg1 : FVec F S32x1024x1024 .f32) (main_arg2 : FVec F S30 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S30 .f32 := Host.absf main_arg2
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_cst_4 : FVec F S_ .f32 := constant S_ .f32 0x00000000#32
  let main_v14 : FVec F S30 .f32 := broadcastInDim S30 ![] bcast_S_S30 main_cst_4
  let main_v15 : IVec S30 1 := cmpf .oge main_arg2 main_v14
  let main_c_5 : IVec S_ 1 := constantI S_ 1 1#1
  fn_part1 (F := F) main_v13 main_v15 main_c_5
-- ==== Kernel.lean ====
abbrev S32x1024x1024 : Shape := ⟨3, ![32, 1024, 1024]⟩
abbrev S30 : Shape := ⟨1, ![30]⟩
abbrev S32768x1024 : Shape := ⟨2, ![32768, 1024]⟩
abbrev S1x128 : Shape := ⟨2, ![1, 128]⟩
abbrev S2048x1024 : Shape := ⟨2, ![2048, 1024]⟩
abbrev S1x2048x1024 : Shape := ⟨3, ![1, 2048, 1024]⟩
abbrev S1 : Shape := ⟨1, ![1]⟩
abbrev S1x1x1 : Shape := ⟨3, ![1, 1, 1]⟩
abbrev S1x30 : Shape := ⟨2, ![1, 30]⟩
abbrev S_ : Shape := ⟨0, ![]⟩
abbrev S2 : Shape := ⟨1, ![2]⟩
abbrev S1x1 : Shape := ⟨2, ![1, 1]⟩

abbrev nBuf : Space → Nat
  | .hbm => 43
  | .vmem => 12
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S30, .f32⟩
  | .hbm, ⟨3, _⟩ => ⟨S32768x1024, .f32⟩
  | .hbm, ⟨4, _⟩ => ⟨S32768x1024, .f32⟩
  | .hbm, ⟨5, _⟩ => ⟨S1x128, .f32⟩
  | .hbm, ⟨6, _⟩ => ⟨S1x30, .f32⟩
  | .hbm, ⟨7, _⟩ => ⟨S30, .f32⟩
  | .hbm, ⟨8, _⟩ => ⟨S_, .f32⟩
  | .hbm, ⟨9, _⟩ => ⟨S30, .f32⟩
  | .hbm, ⟨10, _⟩ => ⟨S30, .i1⟩
  | .hbm, ⟨11, _⟩ => ⟨S_, .f32⟩
  | .hbm, ⟨12, _⟩ => ⟨S30, .f32⟩
  | .hbm, ⟨13, _⟩ => ⟨S30, .f32⟩
  | .hbm, ⟨14, _⟩ => ⟨S_, .f32⟩
  | .hbm, ⟨15, _⟩ => ⟨S30, .f32⟩
  | .hbm, ⟨16, _⟩ => ⟨S30, .f32⟩
  | .hbm, ⟨17, _⟩ => ⟨S30, .f32⟩
  | .hbm, ⟨18, _⟩ => ⟨S30, .f32⟩
  | .hbm, ⟨19, _⟩ => ⟨S_, .f32⟩
  | .hbm, ⟨20, _⟩ => ⟨S_, .f32⟩
  | .hbm, ⟨21, _⟩ => ⟨S30, .f32⟩
  | .hbm, ⟨22, _⟩ => ⟨S30, .f32⟩
  | .hbm, ⟨23, _⟩ => ⟨S_, .f32⟩
  | .hbm, ⟨24, _⟩ => ⟨S30, .f32⟩
  | .hbm, ⟨25, _⟩ => ⟨S30, .f32⟩
  | .hbm, ⟨26, _⟩ => ⟨S_, .f32⟩
  | .hbm, ⟨27, _⟩ => ⟨S_, .f32⟩
  | .hbm, ⟨28, _⟩ => ⟨S30, .f32⟩
  | .hbm, ⟨29, _⟩ => ⟨S30, .f32⟩
  | .hbm, ⟨30, _⟩ => ⟨S_, .f32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S1x1, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x128, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | .local _ .vmem, ⟨9, _⟩ => ⟨S1x128, .f32⟩
  | .local _ .vmem, ⟨10, _⟩ => ⟨S1x1, .f32⟩
  | .local _ .vmem, ⟨11, _⟩ => ⟨S1x1, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S32x1024x1024_S32768x1024 : S32x1024x1024.ShapeCasts S32768x1024
  inb_S1x128_S1x128_0_0 : ∀ a, (![0, 0] : Fin 2 → Nat) a + S1x128.size a ≤ S1x128.size a
  h_S1x128 : 0 < S1x128.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S1x128_d1_w32 : S1x128.Iotas .tc 32 [1]
  natLt_1_32 : 1 < 32
  shapeCasts_S2048x1024_S1x2048x1024 : S2048x1024.ShapeCasts S1x2048x1024
  reduces_S1x2048x1024_S1 : S1x2048x1024.Reduces [1, 2] S1
  shapeCasts_S1_S1x1x1 : S1.ShapeCasts S1x1x1
  inpos_S1x1x1_p0_0_0 : ∀ a, (![0, 0, 0] : Fin 3 → Nat) a < S1x1x1.size a
  shapeCasts_S1x128_S1x128 : S1x128.ShapeCasts S1x128
  slices_S1x128_S1x30_0_0 : S1x128.Slices ![0, 0] S1x30
  shapeCasts_S1x30_S30 : S1x30.ShapeCasts S30
  bcast_S_S30 : S_.BroadcastsInDim S30 (![] : Fin 0 → Fin S30.rank)
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x1_S1x1_0_0 : ∀ a, (![0, 0] : Fin 2 → Nat) a + S1x1.size a ≤ S1x1.size a
  h_S1x1 : 0 < S1x1.numel
  slices_S1x128_o0_0_S1x1 : S1x128.Slices ![0, 0] S1x1
  inpos_S1x1_p0_0 : ∀ a, (![0, 0] : Fin 2 → Nat) a < S1x1.size a
  slices_S1x128_o0_1_S1x1 : S1x128.Slices ![0, 1] S1x1
  slices_S1x128_o0_2_S1x1 : S1x128.Slices ![0, 2] S1x1
  slices_S1x128_o0_3_S1x1 : S1x128.Slices ![0, 3] S1x1
  slices_S1x128_o0_4_S1x1 : S1x128.Slices ![0, 4] S1x1
  slices_S1x128_o0_5_S1x1 : S1x128.Slices ![0, 5] S1x1
  slices_S1x128_o0_6_S1x1 : S1x128.Slices ![0, 6] S1x1
  slices_S1x128_o0_7_S1x1 : S1x128.Slices ![0, 7] S1x1
  slices_S1x128_o0_8_S1x1 : S1x128.Slices ![0, 8] S1x1
  slices_S1x128_o0_9_S1x1 : S1x128.Slices ![0, 9] S1x1
  slices_S1x128_o0_10_S1x1 : S1x128.Slices ![0, 10] S1x1
  slices_S1x128_o0_11_S1x1 : S1x128.Slices ![0, 11] S1x1
  slices_S1x128_o0_12_S1x1 : S1x128.Slices ![0, 12] S1x1
  slices_S1x128_o0_13_S1x1 : S1x128.Slices ![0, 13] S1x1
  slices_S1x128_o0_14_S1x1 : S1x128.Slices ![0, 14] S1x1
  slices_S1x128_o0_15_S1x1 : S1x128.Slices ![0, 15] S1x1
  slices_S1x128_o0_16_S1x1 : S1x128.Slices ![0, 16] S1x1
  slices_S1x128_o0_17_S1x1 : S1x128.Slices ![0, 17] S1x1
  slices_S1x128_o0_18_S1x1 : S1x128.Slices ![0, 18] S1x1
  slices_S1x128_o0_19_S1x1 : S1x128.Slices ![0, 19] S1x1
  slices_S1x128_o0_20_S1x1 : S1x128.Slices ![0, 20] S1x1
  slices_S1x128_o0_21_S1x1 : S1x128.Slices ![0, 21] S1x1
  slices_S1x128_o0_22_S1x1 : S1x128.Slices ![0, 22] S1x1
  slices_S1x128_o0_23_S1x1 : S1x128.Slices ![0, 23] S1x1
  slices_S1x128_o0_24_S1x1 : S1x128.Slices ![0, 24] S1x1
  slices_S1x128_o0_25_S1x1 : S1x128.Slices ![0, 25] S1x1
  slices_S1x128_o0_26_S1x1 : S1x128.Slices ![0, 26] S1x1
  slices_S1x128_o0_27_S1x1 : S1x128.Slices ![0, 27] S1x1
  slices_S1x128_o0_28_S1x1 : S1x128.Slices ![0, 28] S1x1
  slices_S1x128_o0_29_S1x1 : S1x128.Slices ![0, 29] S1x1
  shapeCasts_S1x1_S1x1 : S1x1.ShapeCasts S1x1
  shapeCasts_S1x1_S_ : S1x1.ShapeCasts S_
  scatter_S1x128_S2_S30_0_0_01_0_wf : ScatterDims.WF S1x128 S2 S30 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S32768x1024.size a
  hwx1_0 : ∀ i : grid1.Coords, EltTy.bits .f32 = 32 ∨ (Rect.block (s := S32768x1024) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S32768x1024.size a
  hwx1_1 : ∀ i : grid1.Coords, EltTy.bits .f32 = 32 ∨ (Rect.block (s := S32768x1024) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def scatter_S1x128_S2_S30_0_0_01_0 : ScatterDims S1x128 S2 S30 where
  updateWindowDims := [0]
  insertedWindowDims := [0]
  scatterDimsToOperandDims := [0, 1]
  indexVectorDim := 0
  wf := scatter_S1x128_S2_S30_0_0_01_0_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x1024x1024 : Shape := ⟨3, ![32, 1024, 1024]⟩
abbrev S30 : Shape := ⟨1, ![30]⟩
abbrev S_ : Shape := ⟨0, ![]⟩
abbrev S33554432 : Shape := ⟨1, ![33554432]⟩
abbrev S33554432x1 : Shape := ⟨2, ![33554432, 1]⟩
abbrev S32x1024x1024x1 : Shape := ⟨4, ![32, 1024, 1024, 1]⟩

abbrev nBuf : Space → Nat
  | .hbm => 92
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S30, .f32⟩
  | .hbm, ⟨3, _⟩ => ⟨S32x1024x1024, .f32⟩
  | .hbm, ⟨4, _⟩ => ⟨S32x1024x1024, .f32⟩
  | .hbm, ⟨5, _⟩ => ⟨S_, .f32⟩
  | .hbm, ⟨6, _⟩ => ⟨S32x1024x1024, .f32⟩
  | .hbm, ⟨7, _⟩ => ⟨S32x1024x1024, .f32⟩
  | .hbm, ⟨8, _⟩ => ⟨S_, .f32⟩
  | .hbm, ⟨9, _⟩ => ⟨S32x1024x1024, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S_, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1024x1024, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S32x1024x1024, .i32⟩
  | .hbm, ⟨22, _⟩ => ⟨S32x1024x1024, .i32⟩
  | .hbm, ⟨23, _⟩ => ⟨S_, .i32⟩
  | .hbm, ⟨24, _⟩ => ⟨S32x1024x1024, .i32⟩
  | .hbm, ⟨25, _⟩ => ⟨S32x1024x1024, .i32⟩
  | .hbm, ⟨26, _⟩ => ⟨S_, .f32⟩
  | .hbm, ⟨27, _⟩ => ⟨S30, .f32⟩
  | .hbm, ⟨28, _⟩ => ⟨S33554432, .i32⟩
  | .hbm, ⟨29, _⟩ => ⟨S_, .i32⟩
  | .hbm, ⟨30, _⟩ => ⟨S33554432, .i32⟩
  | .hbm, ⟨31, _⟩ => ⟨S33554432, .i1⟩
  | .hbm, ⟨32, _⟩ => ⟨S_, .i32⟩
  | .hbm, ⟨33, _⟩ => ⟨S33554432, .i32⟩
  | .hbm, ⟨34, _⟩ => ⟨S33554432, .i32⟩
  | .hbm, ⟨35, _⟩ => ⟨S33554432, .i32⟩
  | .hbm, ⟨36, _⟩ => ⟨S33554432x1, .i32⟩
  | .hbm, ⟨37, _⟩ => ⟨S_, .f32⟩
  | .hbm, ⟨38, _⟩ => ⟨S33554432, .f32⟩
  | .hbm, ⟨39, _⟩ => ⟨S30, .f32⟩
  | .hbm, ⟨40, _⟩ => ⟨S_, .f32⟩
  | .hbm, ⟨41, _⟩ => ⟨S30, .f32⟩
  | .hbm, ⟨42, _⟩ => ⟨S30, .i1⟩
  | .hbm, ⟨43, _⟩ => ⟨S_, .f32⟩
  | .hbm, ⟨44, _⟩ => ⟨S30, .f32⟩
  | .hbm, ⟨45, _⟩ => ⟨S30, .f32⟩
  | .hbm, ⟨46, _⟩ => ⟨S_, .f32⟩
  | .hbm, ⟨47, _⟩ => ⟨S30, .f32⟩
  | .hbm, ⟨48, _⟩ => ⟨S30, .f32⟩
  | .hbm, ⟨49, _⟩ => ⟨S30, .f32⟩
  | .hbm, ⟨50, _⟩ => ⟨S30, .f32⟩
  | .hbm, ⟨51, _⟩ => ⟨S_, .f32⟩
  | .hbm, ⟨52, _⟩ => ⟨S_, .f32⟩
  | .hbm, ⟨53, _⟩ => ⟨S30, .f32⟩
  | .hbm, ⟨54, _⟩ => ⟨S30, .f32⟩
  | .hbm, ⟨55, _⟩ => ⟨S_, .f32⟩
  | .hbm, ⟨56, _⟩ => ⟨S30, .f32⟩
  | .hbm, ⟨57, _⟩ => ⟨S30, .f32⟩
  | .hbm, ⟨58, _⟩ => ⟨S_, .f32⟩
  | .hbm, ⟨59, _⟩ => ⟨S_, .f32⟩
  | .hbm, ⟨60, _⟩ => ⟨S30, .f32⟩
  | .hbm, ⟨61, _⟩ => ⟨S30, .f32⟩
  | .hbm, ⟨62, _⟩ => ⟨S_, .i32⟩
  | .hbm, ⟨63, _⟩ => ⟨S32x1024x1024, .i32⟩
  | .hbm, ⟨64, _⟩ => ⟨S32x1024x1024, .i1⟩
  | .hbm, ⟨65, _⟩ => ⟨S_, .i32⟩
  | .hbm, ⟨66, _⟩ => ⟨S32x1024x1024, .i32⟩
  | .hbm, ⟨67, _⟩ => ⟨S32x1024x1024, .i32⟩
  | .hbm, ⟨68, _⟩ => ⟨S32x1024x1024, .i32⟩
  | .hbm, ⟨69, _⟩ => ⟨S32x1024x1024x1, .i32⟩
  | .hbm, ⟨70, _⟩ => ⟨S32x1024x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S32x1024x1024, .f32⟩
  | .hbm, ⟨76, _⟩ => ⟨S32x1024x1024, .f32⟩
  | .hbm, ⟨77, _⟩ => ⟨S_, .f32⟩
  | .hbm, ⟨78, _⟩ => ⟨S32x1024x1024, .f32⟩
  | .hbm, ⟨79, _⟩ => ⟨S32x1024x1024, .f32⟩
  | .hbm, ⟨80, _⟩ => ⟨S32x1024x1024, .f32⟩
  | .hbm, ⟨81, _⟩ => ⟨S32x1024x1024, .f32⟩
  | .hbm, ⟨82, _⟩ => ⟨S32x1024x1024, .f32⟩
  | .hbm, ⟨83, _⟩ => ⟨S32x1024x1024, .f32⟩
  | .hbm, ⟨84, _⟩ => ⟨S32x1024x1024, .f32⟩
  | .hbm, ⟨85, _⟩ => ⟨S32x1024x1024, .f32⟩
  | .hbm, ⟨86, _⟩ => ⟨S32x1024x1024, .f32⟩
  | .hbm, ⟨87, _⟩ => ⟨S32x1024x1024, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_cst_11 : Ref sig .tc := ⟨.hbm, 55, rfl⟩
abbrev main_v32 : Ref sig .tc := ⟨.hbm, 56, rfl⟩
abbrev main_v33 : Ref sig .tc := ⟨.hbm, 57, rfl⟩
abbrev main_cst_12 : Ref sig .tc := ⟨.hbm, 58, rfl⟩
abbrev main_call3_v0 : Ref sig .tc := ⟨.hbm, 59, rfl⟩
abbrev main_call3_v1 : Ref sig .tc := ⟨.hbm, 60, rfl⟩
abbrev main_v34 : Ref sig .tc := ⟨.hbm, 61, rfl⟩
abbrev main_c_13 : Ref sig .tc := ⟨.hbm, 62, rfl⟩
abbrev main_v35 : Ref sig .tc := ⟨.hbm, 63, rfl⟩
abbrev main_v36 : Ref sig .tc := ⟨.hbm, 64, rfl⟩
abbrev main_c_14 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_15 : Ref sig .tc := ⟨.hbm, 71, rfl⟩
abbrev main_v42 : Ref sig .tc := ⟨.hbm, 72, rfl⟩
abbrev main_cst_16 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_17 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_18 : Ref sig .tc := ⟨.hbm, 88, rfl⟩
abbrev main_v56 : Ref sig .tc := ⟨.hbm, 89, rfl⟩
abbrev main_cst_19 : Ref sig .tc := ⟨.hbm, 90, rfl⟩
abbrev main_v57 : Ref sig .tc := ⟨.hbm, 91, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S_S30 : S_.BroadcastsInDim S30 (![] : Fin 0 → Fin S30.rank)
  shapeCasts_S32x1024x1024_S33554432 : S32x1024x1024.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  bcast_S32x1024x1024_S32x1024x1024x1_0_1_2 : S32x1024x1024.BroadcastsInDim S32x1024x1024x1 (![0, 1, 2] : Fin 3 → Fin S32x1024x1024x1.rank)
  reducesTo_S32x1024x1024_S_d0_1_2 : S32x1024x1024.ReducesTo [0, 1, 2] S_
  h_S_ : 0 < S_.numel
  scatter_S30_S33554432x1_S33554432_n_0_0_1_wf : ScatterDims.WF S30 S33554432x1 S33554432 [] [0] [0] 1
  gather_S30_S32x1024x1024x1_S32x1024x1024_n_0_n_n_0_3_1_wf : GatherDims.WF S30 S32x1024x1024x1 S32x1024x1024 [] [0] [] [0] [] 3 ![1]

variable [Facts₀]

def scatter_S30_S33554432x1_S33554432_n_0_0_1 : ScatterDims S30 S33554432x1 S33554432 where
  updateWindowDims := []
  insertedWindowDims := [0]
  scatterDimsToOperandDims := [0]
  indexVectorDim := 1
  wf := scatter_S30_S33554432x1_S33554432_n_0_0_1_wf
def gather_S30_S32x1024x1024x1_S32x1024x1024_n_0_n_n_0_3_1 : GatherDims S30 S32x1024x1024x1 S32x1024x1024 where
  offsetDims := []
  collapsedSliceDims := [0]
  operandBatchingDims := []
  startIndicesBatchingDims := []
  startIndexMap := [0]
  indexVectorDim := 3
  sliceSizes := ![1]
  wf := gather_S30_S32x1024x1024x1_S32x1024x1024_n_0_n_n_0_3_1_wf

class Facts : Prop extends Facts₀ where

variable [Facts]
-- ==== Proof.KPiece1.lean ====
/-
  The second region's body, read as values. At every grid point the body leaves in the numerator's staging buffer
  "what was there + Σ over the block of weight × cross-entropy" and in the denominator's "what was there + Σ over the
  block of weight", where the weights are the thirty-term chain of (indicator of the bin) × (weight of the bin) built
  from the block of logits, the block of targets and the row of bin weights; at the first point "what was there" is
  the zero the body has just stored. The steps are named here as the body's own arithmetic (the generated payload
  terms composed), at any float instance; the next module reads them at an index over the extended reals.
-/
import proofs.«117752_j42417097016426_1_alg».proof.Proof.Gen.KernelIdeal.Frame
import Idealize.ShloMosaic.Lib.Pipeline.Value
import Idealize.ShloMosaic.Lib.Tactic

noncomputable section

namespace Cert.KernelIdeal.KPiece1

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The first stretch of the weight chain: a running sum of (indicator of bin b) × (weight of bin b) over the block's
    elements (the body computes the thirty-term chain in pieces; `wBlk` below adds the remaining terms). -/
def wAcc (x0 x1 : Vec F S2048x1024 .f32) (x2 : Vec F S1x128 .f32) : FVec F S2048x1024 .f32 :=
  k1_pay16 (k1_pay6 x0 x1) (k1_pay7 x2)
    (k1_pay14 (k1_pay6 x0 x1) (k1_pay7 x2)
      (k1_pay12 (k1_pay6 x0 x1) (k1_pay7 x2)
        (k1_pay10 (k1_pay6 x0 x1) (k1_pay7 x2) (k1_pay8 x0 x1 x2) (k1_pay9 x0 x1)) (k1_pay11 (k1_pay6 x0 x1)))
      (k1_pay13 (k1_pay6 x0 x1)))
    (k1_pay15 (k1_pay6 x0 x1))

/-- The whole weight of every element of the block. -/
def wBlk (x0 x1 : Vec F S2048x1024 .f32) (x2 : Vec F S1x128 .f32) : FVec F S2048x1024 .f32 :=
  k1_pay18 (k1_pay6 x0 x1) (k1_pay7 x2) (wAcc x0 x1 x2) (k1_pay17 (k1_pay6 x0 x1))

/-- The numerator after a point: what was there plus the block's sum of weight × cross-entropy. -/
def numStep (x0 x1 : Vec F S2048x1024 .f32) (x2 : Vec F S1x128 .f32) (xo : Vec F S1x1 .f32) : FVec F S1x1 .f32 :=
  k1_pay19 (k1_pay4 x0) (k1_pay5 x1) (k1_pay6 x0 x1) (k1_pay7 x2) (wAcc x0 x1 x2) (k1_pay17 (k1_pay6 x0 x1)) xo

/-- The denominator after a point: what was there plus the block's sum of weights. -/
def denStep (x0 x1 : Vec F S2048x1024 .f32) (x2 : Vec F S1x128 .f32) (xo : Vec F S1x1 .f32) : FVec F S1x1 .f32 :=
  k1_pay1 (wBlk x0 x1 x2) xo

/-- The zero block a first point stores before it accumulates. -/
abbrev zero11 : Vec F S1x1 .f32 := broadcast S1x1 (Scalar.ofBits .f32 0x00000000#32)

theorem out_B_3 (c : Dev nD) (i : grid1.Coords) (a1 : Memref sig .tc .vmem S2048x1024 .f32) (h1 : a1.IsWhole) (a2 : Memref sig .tc .vmem S2048x1024 .f32) (h2 : a2.IsWhole) (a3 : Memref sig .tc .vmem S1x128 .f32) (h3 : a3.IsWhole) (a4 : Memref sig .tc .vmem S1x1 .f32) (h4 : a4.IsWhole) (a5 : Memref sig .tc .vmem S1x1 .f32) (h5 : a5.IsWhole) (hc : ¬cond1_0 i)
    (x0 x1 : Vec F S2048x1024 .f32) (x2 : Vec F S1x128 .f32) (xo3 xo4 : Vec F S1x1 .f32) :
    out1_B_3 c i a1 h1 a2 h2 a3 h3 a4 h4 a5 h5 hc x0 x1 x2 xo3 xo4 = numStep x0 x1 x2 xo3 := by
  unfold out1_B_3
  rw [View.read_writes_eq_canon _ _ _ (cover1_B_3 c i a1 h1 a2 h2 a3 h3 a4 h4 a5 h5 hc x0 x1 x2 xo3 xo4)]
  unfold kernelRun1_B
  dsimp only
  sl_unfold_words
  rw [View.canon_unit_zero hz]
  simp only [View.readAt_eq_ld, h1.read_unread, h2.read_unread, h3.read_unread, h4.read_unread, h5.read_unread,
    View.ld_unit_zero (S := S2048x1024) hz, View.ld_unit_zero (S := S1x128) hz, View.ld_unit_zero (S := S1x1) hz]
  rfl

theorem out_B_4 (c : Dev nD) (i : grid1.Coords) (a1 : Memref sig .tc .vmem S2048x1024 .f32) (h1 : a1.IsWhole) (a2 : Memref sig .tc .vmem S2048x1024 .f32) (h2 : a2.IsWhole) (a3 : Memref sig .tc .vmem S1x128 .f32) (h3 : a3.IsWhole) (a4 : Memref sig .tc .vmem S1x1 .f32) (h4 : a4.IsWhole) (a5 : Memref sig .tc .vmem S1x1 .f32) (h5 : a5.IsWhole) (hc : ¬cond1_0 i)
    (x0 x1 : Vec F S2048x1024 .f32) (x2 : Vec F S1x128 .f32) (xo3 xo4 : Vec F S1x1 .f32) :
    out1_B_4 c i a1 h1 a2 h2 a3 h3 a4 h4 a5 h5 hc x0 x1 x2 xo3 xo4 = denStep x0 x1 x2 xo4 := by
  unfold out1_B_4
  rw [View.read_writes_eq_canon _ _ _ (cover1_B_4 c i a1 h1 a2 h2 a3 h3 a4 h4 a5 h5 hc x0 x1 x2 xo3 xo4)]
  unfold kernelRun1_B
  dsimp only
  sl_unfold_words
  rw [View.canon_unit_zero hz]
  simp only [View.readAt_eq_ld, h1.read_unread, h2.read_unread, h3.read_unread, h4.read_unread, h5.read_unread,
    View.ld_unit_zero (S := S2048x1024) hz, View.ld_unit_zero (S := S1x128) hz, View.ld_unit_zero (S := S1x1) hz]
  rfl

theorem out_A_3 (c : Dev nD) (i : grid1.Coords) (a1 : Memref sig .tc .vmem S2048x1024 .f32) (h1 : a1.IsWhole) (a2 : Memref sig .tc .vmem S2048x1024 .f32) (h2 : a2.IsWhole) (a3 : Memref sig .tc .vmem S1x128 .f32) (h3 : a3.IsWhole) (a4 : Memref sig .tc .vmem S1x1 .f32) (h4 : a4.IsWhole) (a5 : Memref sig .tc .vmem S1x1 .f32) (h5 : a5.IsWhole) (hc : cond1_0 i)
    (x0 x1 : Vec F S2048x1024 .f32) (x2 : Vec F S1x128 .f32) :
    out1_A_3 c i a1 h1 a2 h2 a3 h3 a4 h4 a5 h5 hc x0 x1 x2 = numStep x0 x1 x2 zero11 := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S2048x1024) hz, View.ld_unit_zero (S := S1x128) hz, View.ld_unit_zero (S := S1x1) hz]
  rfl

theorem out_A_4 (c : Dev nD) (i : grid1.Coords) (a1 : Memref sig .tc .vmem S2048x1024 .f32) (h1 : a1.IsWhole) (a2 : Memref sig .tc .vmem S2048x1024 .f32) (h2 : a2.IsWhole) (a3 : Memref sig .tc .vmem S1x128 .f32) (h3 : a3.IsWhole) (a4 : Memref sig .tc .vmem S1x1 .f32) (h4 : a4.IsWhole) (a5 : Memref sig .tc .vmem S1x1 .f32) (h5 : a5.IsWhole) (hc : cond1_0 i)
    (x0 x1 : Vec F S2048x1024 .f32) (x2 : Vec F S1x128 .f32) :
    out1_A_4 c i a1 h1 a2 h2 a3 h3 a4 h4 a5 h5 hc x0 x1 x2 = denStep x0 x1 x2 zero11 := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S2048x1024) hz, View.ld_unit_zero (S := S1x128) hz, View.ld_unit_zero (S := S1x1) hz]
  rfl

end Cert.KernelIdeal.KPiece1

end
-- ==== Proof.Spec.lean ====
/-
  The loss both programs compute, stated once over an abstract finite set of elements.

  Every element `e` carries a logit `x e` and a target `t e`. Its gradient magnitude is `|σ(x) - t|`; its bin is
  `⌊30·|σ(x) - t|⌋` clipped to `0 … 29`; `cnt b` counts the elements of bin `b`. A non-empty bin's accumulator
  becomes `½·acc + ½·cnt` and its weight `N / (½·acc + ½·cnt)`; an empty bin's weight is `0`. An element's weight
  `wt e` is its bin's weight, written as the sum over the thirty bins of (indicator of the bin) × (weight of the
  bin). With `bce e = max(x,0) - x·t + log(1 + e^{-|x|})` one program returns `(Σ wt·bce) / (Σ wt)` and the other
  `(Σ (wt / ((Σ wt)/N))·bce) / N`. Everything is written with the exact extended-real operations of the `Ideal`
  float instance, so that either program's term at an index is one of these terms up to unfolding.
-/
import Idealize.ShloMosaic.PureOps.Ideal
import Idealize.ShloMosaic.PureOps.Ideal.Laws

noncomputable section

namespace Cert.GHM

open Idealize.ShloMosaic

/-- The literals: 30, ½, 1, 0 and the element count N = 2^25, as the `f32` words both programs print. -/
abbrev k30 : EReal := Ideal.ofBits .f32 0x41F00000#32
abbrev kHalf : EReal := Ideal.ofBits .f32 0x3F000000#32
abbrev kOne : EReal := Ideal.ofBits .f32 0x3F800000#32
abbrev kZero : EReal := Ideal.ofBits .f32 0x00000000#32
abbrev kTot : EReal := Ideal.ofBits .f32 0x4C000000#32

/-- `|σ(x) - t|`, with `|y| = max y (-y)`. -/
def gmag (x t : EReal) : EReal := max (Ideal.logistic x - t) (-(Ideal.logistic x - t))

/-- The bin of an element: `⌊30·|σ(x) - t|⌋` as a 32-bit integer, clipped below at 0 and above at 29. -/
def binOf (x t : EReal) : BitVec 32 :=
  IntOp.minsi 29#32 (IntOp.maxsi 0#32 (Ideal.fptosi 32 (Ideal.liftRound Int.floor (gmag x t * k30))))

/-- The indicator of `v = b` as an extended real: the comparison's bit, widened and converted. -/
def ind (v b : BitVec 32) : EReal := (((BitVec.setWidth 32 (IntOp.cmpi .eq v b)).toInt : ℝ) : EReal)

/-- The binary cross-entropy term `max(x,0) - x·t + log(1 + e^{-|x|})`. -/
def bce (x t : EReal) : EReal := (max x kZero - x * t) + Ideal.log1p (Ideal.exp (-(max x (-x))))

/-- A bin's weight from its count `c` and its accumulator `a`. -/
def binW (c a : EReal) : EReal :=
  Scalar.select (Ideal.cmp .ogt c kZero)
    (Ideal.div kTot (Scalar.select (Ideal.cmp .ogt c kZero)
      (Scalar.select (Ideal.cmp .ogt c kZero) (kHalf * a + kHalf * c) a) kOne))
    kZero

section
variable {ι : Type} [Fintype ι] (x t : ι → EReal) (acc : Fin 30 → EReal)

/-- The number of elements of bin `b`. -/
def cnt (b : Fin 30) : EReal := ∑ e, ind (binOf (x e) (t e)) (BitVec.ofNat 32 b.val)

/-- The weight of bin `b`. -/
def wBin (b : Fin 30) : EReal := binW (cnt x t b) (acc b)

/-- The weight of element `e`: the sum over the bins of indicator × bin weight. -/
def wt (e : ι) : EReal := ∑ b : Fin 30, ind (binOf (x e) (t e)) (BitVec.ofNat 32 b.val) * wBin x t acc b

/-- The kernel's loss: the weighted sum of the cross-entropy terms over the sum of the weights. -/
def lossK : EReal := Ideal.div (∑ e, wt x t acc e * bce (x e) (t e)) (∑ e, wt x t acc e)

/-- The reference's loss: every weight divided by the mean weight, the weighted sum divided by the count. -/
def lossR : EReal :=
  Ideal.div (∑ e, Ideal.div (wt x t acc e) (Ideal.div (∑ e', wt x t acc e') kTot) * bce (x e) (t e)) kTot

end

end Cert.GHM

end
-- ==== Proof.KVal1.lean ====
/-
  The second region's steps read at an index, over the extended reals. The weight the body builds for an element is
  the thirty-term chain 0 + [bin = 0]·w₀ + [bin = 1]·w₁ + … + [bin = 29]·w₂₉, where w_b is lane b of the row of bin
  weights: the sum over b < 30 of (indicator of the bin) × (lane b). The numerator's step adds to what was there the
  sum over the block of weight × cross-entropy, the denominator's the sum over the block of the weights (a lane
  reduction over the whole block is the sum over its indices; a cast to [1, 2048, 1024] only renames them).
-/
import proofs.«117752_j42417097016426_1_alg».proof.Proof.KPiece1
import proofs.«117752_j42417097016426_1_alg».proof.Proof.Spec
import Idealize.ShloMosaic.Lib.ValueIdx
import Idealize.ShloMosaic.Lib.Pipeline.Value
import Idealize.ShloMosaic.PureOps.Ideal.Laws

noncomputable section

namespace Cert.KernelIdeal.KVal1

open Cert.KernelIdeal Cert.KernelIdeal.Gen Cert.KernelIdeal.KPiece1
open Idealize.ShloMosaic Idealize.ShloMosaic.ValueIdx

/-- Lane `k` of a [1, 128] row (0 past the row's end, which no use below reaches). -/
def lane (wv : Vec Ideal S1x128 .f32) (k : ℕ) : EReal :=
  if h : k < 128 then wv (ix2 (0 : Fin 1) (⟨k, h⟩ : Fin 128)) else 0

/-- One term of the chain at an element: the indicator of "the element's bin is `b`" times lane `k` of the row. -/
theorem term_apply (bins : IVec S2048x1024 32) (wv : FVec Ideal S1x128 .f32) (b : BitVec 32) (k : ℕ) (hlt : 1 < 32)
    (h : S1x128.Slices ![0, k] S1x1) (h' : ∀ a, (![0, 0] : Fin 2 → ℕ) a < S1x1.size a) (y : S2048x1024.Idx) :
    mulf (sitofp .f32 (extui 32 (cmpi .eq bins (broadcast S2048x1024 b)) hlt))
        (broadcast S2048x1024 (extractAt ![0, 0] (extractStridedSlice S1x1 ![0, k] wv h) h')) y
      = Cert.GHM.ind (bins y) b * lane wv k := by
  have hk : k < 128 := by
    have := h.2 1
    simpa using this
  unfold lane
  rw [dif_pos hk]
  show Cert.GHM.ind (bins y) b * wv _ = _
  congr 2
  funext a
  match a with
  | ⟨0, _⟩ => rfl
  | ⟨1, _⟩ => exact Fin.ext (by simp)

/-- The weight of an element of the block: the sum over the thirty bins of indicator × lane. -/
def wtB (x0 x1 : Vec Ideal S2048x1024 .f32) (x2 : Vec Ideal S1x128 .f32) (y : S2048x1024.Idx) : EReal :=
  ∑ b ∈ Finset.range 30, Cert.GHM.ind (Cert.GHM.binOf (x0 y) (x1 y)) (BitVec.ofNat 32 b) * lane x2 b

/-- The body's clipped bin of an element is the specification's. -/
theorem bins_apply (x0 x1 : Vec Ideal S2048x1024 .f32) (y : S2048x1024.Idx) :
    k1_pay6 x0 x1 y = Cert.GHM.binOf (x0 y) (x1 y) := by
  unfold k1_pay6 k1_pay5 k1_pay4
  simp only [shapeCast_self]
  rfl

/-- The body's weight chain at an element is that sum. -/
theorem wBlk_apply (x0 x1 : Vec Ideal S2048x1024 .f32) (x2 : Vec Ideal S1x128 .f32) (y : S2048x1024.Idx) :
    wBlk x0 x1 x2 y = wtB x0 x1 x2 y := by
  unfold wtB
  simp only [Finset.sum_range_succ, Finset.sum_range_zero]
  unfold wBlk wAcc k1_pay18 k1_pay17 k1_pay16 k1_pay15 k1_pay14 k1_pay13 k1_pay12 k1_pay11 k1_pay10 k1_pay9 k1_pay8 k1_pay7
  simp only [shapeCast_self, addf_apply, term_apply, broadcast_apply, bins_apply, Ideal.ofBits_def, Ideal.ofBits_zero_f32]

/-- A lane reduction of a whole [2048, 1024] block (cast to [1, 2048, 1024], reduced over its two long axes, the one
    result extracted) is the sum over the block's indices. -/
theorem blockSum (w : FVec Ideal S2048x1024 .f32) (h1 : S2048x1024.ShapeCasts S1x2048x1024)
    (hr : S1x2048x1024.Reduces [1, 2] S1) (hφ : FKind.Formats .f32)
    (hacc : (0x00000000#32 : BitVec FTy.f32.bits) = FKind.add.neutral .f32 hφ)
    (h2 : S1.ShapeCasts S1x1x1) (h3 : ∀ a, (![0, 0, 0] : Fin 3 → ℕ) a < S1x1x1.size a) :
    extractAt ![0, 0, 0] (shapeCast S1x1x1 (multiReduction .add [1, 2] S1 (shapeCast S1x2048x1024 w h1) 0x00000000#32 hr hφ hacc) h2) h3
      = ∑ y, w y := by
  unfold extractAt
  show multiReduction .add [1, 2] S1 (shapeCast S1x2048x1024 w h1) 0x00000000#32 hr hφ hacc (Shape.reshapeEquiv h2 _) = _
  rw [Ideal.multiReduction_add_total _ _ hr (fun b => by fin_cases b; rfl) hφ hacc]
  exact Equiv.sum_comp (Shape.reshapeEquiv h1) w

/-- The body's cross-entropy term at an element is the specification's. -/
theorem bce_apply (x0 x1 : FVec Ideal S2048x1024 .f32) (y : S2048x1024.Idx) :
    addf (subf (maximumf x0 (broadcast S2048x1024 (Scalar.ofBits .f32 0x00000000#32))) (mulf x0 x1))
        (log1p (exp (subf (broadcast S2048x1024 (Scalar.ofBits .f32 0x00000000#32)) (absf x0)))) y
      = Cert.GHM.bce (x0 y) (x1 y) := by
  show (max (x0 y) (Ideal.ofBits .f32 0x00000000#32) - x0 y * x1 y)
      + Ideal.log1p (Ideal.exp (Ideal.ofBits .f32 0x00000000#32 - max (x0 y) (-(x0 y)))) = _
  unfold Cert.GHM.bce Cert.GHM.kZero
  rw [Ideal.ofBits_zero_f32, zero_sub]

/-- The numerator's step at its one index. -/
theorem numStep_apply (x0 x1 : Vec Ideal S2048x1024 .f32) (x2 : Vec Ideal S1x128 .f32) (xo : Vec Ideal S1x1 .f32) :
    numStep x0 x1 x2 xo (ix2 0 0) = xo (ix2 0 0) + ∑ y, wtB x0 x1 x2 y * Cert.GHM.bce (x0 y) (x1 y) := by
  unfold numStep k1_pay19 k1_pay5 k1_pay4
  simp only [shapeCast_self]
  rw [addf_apply, broadcast_apply]
  refine (congrArg (xo (ix2 0 0) + ·) (blockSum _ _ _ _ _ _ _)).trans ?_
  refine congrArg _ (Finset.sum_congr rfl fun y _ => ?_)
  rw [mulf_apply, bce_apply]
  exact congrArg (· * _) (wBlk_apply x0 x1 x2 y)

/-- The denominator's step at its one index. -/
theorem denStep_apply (x0 x1 : Vec Ideal S2048x1024 .f32) (x2 : Vec Ideal S1x128 .f32) (xo : Vec Ideal S1x1 .f32) :
    denStep x0 x1 x2 xo (ix2 0 0) = xo (ix2 0 0) + ∑ y, wtB x0 x1 x2 y := by
  unfold denStep k1_pay1
  simp only [shapeCast_self]
  rw [addf_apply, broadcast_apply]
  refine (congrArg (xo (ix2 0 0) + ·) (blockSum _ _ _ _ _ _ _)).trans ?_
  exact congrArg _ (Finset.sum_congr rfl fun y _ => wBlk_apply x0 x1 x2 y)

end Cert.KernelIdeal.KVal1

end
-- ==== Proof.KFinal.lean ====
/-
  An accumulator output of a region — one block, the whole array, whose index never moves — is written back once, after
  the last grid point: the array ends holding what the body left in the staging buffer at point 15. Stated for the
  histogram of the first region and for the two scalars of the second, at any entry contents `V`.
-/
import proofs.«117752_j42417097016426_1_alg».proof.Proof.Gen.KernelIdeal.Frame
import Idealize.ShloMosaic.Lib.Pipeline.Value

noncomputable section

namespace Cert.KernelIdeal.KFinal

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- What output window 2 of region 0 holds after the last point. -/
abbrev hist (c : Dev nD) : Buf (Elt F) ((c : Thread nD τ).loc main_v2) :=
  (outsAt0 V c 15 (by rw [show cfg0.N = 16 from N_0]; decide))

/-- The one write-back, at the last point, writes it: the block is the whole array. -/
theorem flushed0_2 (c : Dev nD) (t : Fin cfg0.N) (hf : (cfg0.win 2).flush t = true) :
    (dat0 V c).flushed 2 t = ((cfg0.win 2).blk t).view.read (Elt F) (hist V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2]
  have hz' : (fun a => win0_2.index t0_15 a * main_v2.ty.shape.size a) = fun _ => 0 := funext fun a => by fin_cases a <;> decide
  exact (Memref.read_access_unit_zero (Elt F) main_v2 hz' (fun a => by rw [congrFun hz' a]; simp) (hist V c)).symm

/-- So the array ends holding the accumulator after the last point. -/
theorem final0_2 (c : Dev nD) : (dat0 V c).arrAt 2 cfg0.N = hist V c :=
  (dat0 V c).arrAt_eq_of_cover 2 (hist V c) (flushed0_2 V c) fun i =>
    ⟨t0_15, (flush0_2 t0_15).mpr rfl, by
      show i ∈ ((View.whole main_v2).slice (win0_2.rect t0_15)).set
      rw [View.set_slice_whole, Rect.mem_set_unit]
      intro a
      have h0 : (i 0 : Nat) < 1 := (i 0).isLt
      have h1 : (i 1 : Nat) < 128 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 128 from by decide +kernel]; omega⟩

/-- What output window 3 of region 1 holds after the last point. -/
abbrev numer (c : Dev nD) : Buf (Elt F) ((c : Thread nD τ).loc main_v22_0) :=
  (outsAt1 V c 15 (by rw [show cfg1.N = 16 from N_1]; decide)).1

/-- The one write-back, at the last point, writes it: the block is the whole array. -/
theorem flushed1_3 (c : Dev nD) (t : Fin cfg1.N) (hf : (cfg1.win 3).flush t = true) :
    (dat1 V c).flushed 3 t = ((cfg1.win 3).blk t).view.read (Elt F) (numer V c) := by
  have hN : cfg1.N = 16 := N_1
  have h15 : t.val = 15 := by have := (flush1_3 t).mp hf; have := t.isLt; omega
  obtain rfl : t = t1_15 := Fin.ext h15
  show (cfg1.win 3).cut (grid1.coords t1_15) ((dat1 V c).after 3 t1_15) = _
  rw [after1_3]
  have hz' : (fun a => win1_3.index t1_15 a * main_v22_0.ty.shape.size a) = fun _ => 0 := funext fun a => by fin_cases a <;> decide
  exact (Memref.read_access_unit_zero (Elt F) main_v22_0 hz' (fun a => by rw [congrFun hz' a]; simp) (numer V c)).symm

/-- So the array ends holding the accumulator after the last point. -/
theorem final1_3 (c : Dev nD) : (dat1 V c).arrAt 3 cfg1.N = numer V c :=
  (dat1 V c).arrAt_eq_of_cover 3 (numer V c) (flushed1_3 V c) fun i =>
    ⟨t1_15, (flush1_3 t1_15).mpr rfl, by
      show i ∈ ((View.whole main_v22_0).slice (win1_3.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_15 0 * win1_3.size 0 ≤ (i 0 : Nat) ∧ (i 0 : Nat) < win1_3.index t1_15 0 * win1_3.size 0 + win1_3.xsize (grid1.coords t1_15) 0
                  rw [show win1_3.index t1_15 0 * win1_3.size 0 = 0 from by decide +kernel, show win1_3.xsize (grid1.coords t1_15) 0 = 1 from by decide +kernel]; omega
      | ⟨1, _⟩ => show win1_3.index t1_15 1 * win1_3.size 1 ≤ (i 1 : Nat) ∧ (i 1 : Nat) < win1_3.index t1_15 1 * win1_3.size 1 + win1_3.xsize (grid1.coords t1_15) 1
                  rw [show win1_3.index t1_15 1 * win1_3.size 1 = 0 from by decide +kernel, show win1_3.xsize (grid1.coords t1_15) 1 = 1 from by decide +kernel]; omega⟩

/-- What output window 4 of region 1 holds after the last point. -/
abbrev denom (c : Dev nD) : Buf (Elt F) ((c : Thread nD τ).loc main_v22_1) :=
  (outsAt1 V c 15 (by rw [show cfg1.N = 16 from N_1]; decide)).2

/-- The one write-back, at the last point, writes it: the block is the whole array. -/
theorem flushed1_4 (c : Dev nD) (t : Fin cfg1.N) (hf : (cfg1.win 4).flush t = true) :
    (dat1 V c).flushed 4 t = ((cfg1.win 4).blk t).view.read (Elt F) (denom V c) := by
  have hN : cfg1.N = 16 := N_1
  have h15 : t.val = 15 := by have := (flush1_4 t).mp hf; have := t.isLt; omega
  obtain rfl : t = t1_15 := Fin.ext h15
  show (cfg1.win 4).cut (grid1.coords t1_15) ((dat1 V c).after 4 t1_15) = _
  rw [after1_4]
  have hz' : (fun a => win1_4.index t1_15 a * main_v22_1.ty.shape.size a) = fun _ => 0 := funext fun a => by fin_cases a <;> decide
  exact (Memref.read_access_unit_zero (Elt F) main_v22_1 hz' (fun a => by rw [congrFun hz' a]; simp) (denom V c)).symm

/-- So the array ends holding the accumulator after the last point. -/
theorem final1_4 (c : Dev nD) : (dat1 V c).arrAt 4 cfg1.N = denom V c :=
  (dat1 V c).arrAt_eq_of_cover 4 (denom V c) (flushed1_4 V c) fun i =>
    ⟨t1_15, (flush1_4 t1_15).mpr rfl, by
      show i ∈ ((View.whole main_v22_1).slice (win1_4.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_4.index t1_15 0 * win1_4.size 0 ≤ (i 0 : Nat) ∧ (i 0 : Nat) < win1_4.index t1_15 0 * win1_4.size 0 + win1_4.xsize (grid1.coords t1_15) 0
                  rw [show win1_4.index t1_15 0 * win1_4.size 0 = 0 from by decide +kernel, show win1_4.xsize (grid1.coords t1_15) 0 = 1 from by decide +kernel]; omega
      | ⟨1, _⟩ => show win1_4.index t1_15 1 * win1_4.size 1 ≤ (i 1 : Nat) ∧ (i 1 : Nat) < win1_4.index t1_15 1 * win1_4.size 1 + win1_4.xsize (grid1.coords t1_15) 1
                  rw [show win1_4.index t1_15 1 * win1_4.size 1 = 0 from by decide +kernel, show win1_4.xsize (grid1.coords t1_15) 1 = 1 from by decide +kernel]; omega⟩

end Cert.KernelIdeal.KFinal

end
-- ==== Proof.LibBlockSum.lean ====
/-
  Sums over a range of T · B consecutive indices taken block by block, and running totals.

  The indices 0, …, T·B − 1 split into T consecutive blocks of B: index t·B + y is entry y of block t.  A sum over all of
  them is therefore the sum over the blocks of each block's sum.  A running total that starts from z plus the first
  term and adds one more term at each step is, after step t, z plus the sum of terms 0, …, t.  Together: a total
  accumulated block by block is z plus the sum over all T·B indices.
-/
import Mathlib

open scoped BigOperators

namespace Cert.Lib.BatchNorm

/-! ## The block decomposition of a range of T · B indices -/

/-- Entry y of block t has flat index t·B + y, below T·B. -/
theorem block_index_lt {T B : ℕ} (t : Fin T) (y : Fin B) : t.val * B + y.val < T * B :=
  calc t.val * B + y.val < t.val * B + B := Nat.add_lt_add_left y.isLt _
    _ = (t.val + 1) * B := by ring
    _ ≤ T * B := Nat.mul_le_mul_right _ t.isLt

/-- A sum over T·B indices is the sum over the T blocks of the sum over each block's B entries. -/
theorem sum_fin_mul {M : Type*} [AddCommMonoid M] (T B : ℕ) (f : Fin (T * B) → M) :
    ∑ i : Fin (T * B), f i = ∑ t : Fin T, ∑ y : Fin B, f ⟨t.val * B + y.val, block_index_lt t y⟩ := by
  rw [← Equiv.sum_comp (finProdFinEquiv (m := T) (n := B)) f, Fintype.sum_prod_type]
  refine Finset.sum_congr rfl fun t _ => Finset.sum_congr rfl fun y _ => ?_
  congr 1
  refine Fin.ext ?_
  simp only [finProdFinEquiv_apply_val]
  ring

/-- The same for a function of the flat index as a natural number, with the blocks and entries counted by ranges. -/
theorem sum_fin_mul_nat {M : Type*} [AddCommMonoid M] (T B : ℕ) (F : ℕ → M) :
    ∑ i : Fin (T * B), F i.val = ∑ t ∈ Finset.range T, ∑ y ∈ Finset.range B, F (t * B + y) := by
  rw [sum_fin_mul T B fun i => F i.val, Finset.sum_range]
  refine Finset.sum_congr rfl fun t _ => ?_
  rw [Finset.sum_range]

/-! ## Running totals -/

/-- A running total a, with a 0 = z + g 0 and a (t + 1) = a t + g (t + 1), is at step t the start z plus the sum of
    g 0, …, g t. -/
theorem running_total {M : Type*} [AddCommMonoid M] (a g : ℕ → M) (z : M) (h0 : a 0 = z + g 0)
    (hs : ∀ t, a (t + 1) = a t + g (t + 1)) (t : ℕ) : a t = z + ∑ s ∈ Finset.range (t + 1), g s := by
  induction t with
  | zero => rw [h0, Finset.sum_range_one]
  | succ t ih => rw [hs t, ih, Finset.sum_range_succ _ (t + 1), add_assoc]

/-- The same when the recurrence is known only up to a last step T − 1: for every t below T. -/
theorem running_total_below {M : Type*} [AddCommMonoid M] (T : ℕ) (a g : ℕ → M) (z : M) (h0 : a 0 = z + g 0)
    (hs : ∀ t, t + 1 < T → a (t + 1) = a t + g (t + 1)) (t : ℕ) (ht : t < T) :
    a t = z + ∑ s ∈ Finset.range (t + 1), g s := by
  induction t with
  | zero => rw [h0, Finset.sum_range_one]
  | succ t ih => rw [hs t ht, ih (Nat.lt_of_succ_lt ht), Finset.sum_range_succ _ (t + 1), add_assoc]

/-- A sum of g 0, …, g (T − 1) counted by a range is the sum over the T indices below T. -/
theorem sum_range_eq_sum_fin {M : Type*} [AddCommMonoid M] (T : ℕ) (g : ℕ → M) :
    ∑ s ∈ Finset.range T, g s = ∑ t : Fin T, g t.val :=
  Finset.sum_range g

/-- A total accumulated block by block — it starts from z plus block 0's sum and adds block t + 1's sum at step
    t + 1 — is, after the last of T ≥ 1 blocks of B entries, z plus the sum over all T·B flat indices. -/
theorem running_total_blocks {M : Type*} [AddCommMonoid M] (T B : ℕ) (hT : 0 < T) (a : ℕ → M) (F : ℕ → M) (z : M)
    (h0 : a 0 = z + ∑ y ∈ Finset.range B, F (0 * B + y))
    (hs : ∀ t, t + 1 < T → a (t + 1) = a t + ∑ y ∈ Finset.range B, F ((t + 1) * B + y)) :
    a (T - 1) = z + ∑ i : Fin (T * B), F i.val := by
  rw [running_total_below T a (fun t => ∑ y ∈ Finset.range B, F (t * B + y)) z h0 hs (T - 1) (by omega),
    sum_fin_mul_nat, Nat.sub_add_cancel hT]

/-! ## Running totals indexed by the steps 0, …, T − 1 themselves -/

/-- A running total a over the T steps, with a 0 = z + g 0 and a (t + 1) = a t + g (t + 1), is at the last step the
    start z plus the sum of all T terms. -/
theorem running_total_fin_last {M : Type*} [AddCommMonoid M] {T : ℕ} (hT : 0 < T) (a g : Fin T → M) (z : M)
    (h0 : a ⟨0, hT⟩ = z + g ⟨0, hT⟩)
    (hs : ∀ (t : ℕ) (h : t + 1 < T), a ⟨t + 1, h⟩ = a ⟨t, Nat.lt_of_succ_lt h⟩ + g ⟨t + 1, h⟩) :
    a ⟨T - 1, Nat.sub_lt hT Nat.one_pos⟩ = z + ∑ s : Fin T, g s := by
  have key := running_total_below T (fun t => if h : t < T then a ⟨t, h⟩ else 0)
    (fun t => if h : t < T then g ⟨t, h⟩ else 0) z
    (by simp only [dif_pos hT]; exact h0)
    (fun t h => by simp only [dif_pos h, dif_pos (Nat.lt_of_succ_lt h)]; exact hs t h)
    (T - 1) (Nat.sub_lt hT Nat.one_pos)
  simp only [dif_pos (Nat.sub_lt hT Nat.one_pos), Nat.sub_add_cancel hT] at key
  rw [key, Finset.sum_range]
  congr 1
  exact Finset.sum_congr rfl fun s _ => by rw [dif_pos s.isLt]

/-- A total accumulated block by block over T ≥ 1 blocks of B entries — it starts from z plus block 0's sum and
    adds block t + 1's sum at step t + 1 — is at the last step z plus the sum over all T·B flat indices. -/
theorem running_total_blocks_fin {M : Type*} [AddCommMonoid M] (T B : ℕ) (hT : 0 < T) (a : Fin T → M)
    (f : Fin (T * B) → M) (z : M)
    (h0 : a ⟨0, hT⟩ = z + ∑ y : Fin B, f ⟨(⟨0, hT⟩ : Fin T).val * B + y.val, block_index_lt ⟨0, hT⟩ y⟩)
    (hs : ∀ (t : ℕ) (h : t + 1 < T), a ⟨t + 1, h⟩ = a ⟨t, Nat.lt_of_succ_lt h⟩
        + ∑ y : Fin B, f ⟨(⟨t + 1, h⟩ : Fin T).val * B + y.val, block_index_lt ⟨t + 1, h⟩ y⟩) :
    a ⟨T - 1, Nat.sub_lt hT Nat.one_pos⟩ = z + ∑ i : Fin (T * B), f i := by
  rw [sum_fin_mul]
  exact running_total_fin_last hT a (fun t => ∑ y : Fin B, f ⟨t.val * B + y.val, block_index_lt t y⟩) z h0 hs

/-! ## The instance 50000 = 10 · 5000 -/

/-- A sum over 50000 indices is the sum over 10 blocks of the sum over each block's 5000 entries. -/
theorem sum_fin_50000 {M : Type*} [AddCommMonoid M] (f : Fin 50000 → M) :
    ∑ i : Fin 50000, f i
      = ∑ t : Fin 10, ∑ y : Fin 5000, f ⟨t.val * 5000 + y.val, by have := t.isLt; have := y.isLt; omega⟩ :=
  sum_fin_mul 10 5000 f

/-- The same for a function of the flat index as a natural number. -/
theorem sum_fin_50000_nat {M : Type*} [AddCommMonoid M] (F : ℕ → M) :
    ∑ i : Fin 50000, F i.val = ∑ t ∈ Finset.range 10, ∑ y ∈ Finset.range 5000, F (t * 5000 + y) :=
  sum_fin_mul_nat 10 5000 F

/-- A total accumulated over 10 blocks of 5000 is z plus the sum over all 50000 flat indices. -/
theorem running_total_50000 {M : Type*} [AddCommMonoid M] (a : ℕ → M) (F : ℕ → M) (z : M)
    (h0 : a 0 = z + ∑ y ∈ Finset.range 5000, F (0 * 5000 + y))
    (hs : ∀ t, t + 1 < 10 → a (t + 1) = a t + ∑ y ∈ Finset.range 5000, F ((t + 1) * 5000 + y)) :
    a 9 = z + ∑ i : Fin 50000, F i.val :=
  running_total_blocks 10 5000 (by norm_num) a F z h0 hs

/-- A total accumulated over the 10 steps, block t being the 5000 entries from 5000 t on, is at step 9 the start z
    plus the sum over all 50000 entries. -/
theorem running_total_50000_fin {M : Type*} [AddCommMonoid M] (a : Fin 10 → M) (f : Fin 50000 → M) (z : M)
    (h0 : a 0 = z + ∑ y : Fin 5000, f ⟨0 * 5000 + y.val, by have := y.isLt; omega⟩)
    (hs : ∀ (t : ℕ) (h : t + 1 < 10), a ⟨t + 1, h⟩ = a ⟨t, Nat.lt_of_succ_lt h⟩
        + ∑ y : Fin 5000, f ⟨(t + 1) * 5000 + y.val, by have := y.isLt; omega⟩) :
    a 9 = z + ∑ i : Fin 50000, f i :=
  running_total_blocks_fin 10 5000 (by norm_num) a f z h0 hs

end Cert.Lib.BatchNorm
-- ==== Proof.KAcc1.lean ====
/-
  The second region's two accumulators after the last grid point. The first point stores zero and adds its block's
  sums; every later point adds its block's sums to what the point before left; so after point 15 the numerator holds
  the sum over the sixteen blocks of Σ weight × cross-entropy, and the denominator the sum over the blocks of Σ weight
  (a running total from zero, read at the accumulators' one index).
-/
import proofs.«117752_j42417097016426_1_alg».proof.Proof.KVal1
import proofs.«117752_j42417097016426_1_alg».proof.Proof.KFinal
import proofs.«117752_j42417097016426_1_alg».proof.Proof.LibBlockSum

noncomputable section

namespace Cert.KernelIdeal.KAcc1

open Cert.KernelIdeal Cert.KernelIdeal.Gen Cert.KernelIdeal.KPiece1 Cert.KernelIdeal.KVal1
open Idealize.ShloMosaic Idealize.ShloMosaic.TcCoe Idealize.ShloMosaic.ValueIdx Idealize.SL.Sem

variable (V : (c : Dev nD) → (b : Ref sig .tc) → Buf (Elt Ideal) ((c : Thread nD τ).loc b))

/-- The three input blocks at a point: logits, targets, the row of bin weights. -/
abbrev bx (c : Dev nD) (t : Fin cfg1.N) : Vec Ideal S2048x1024 .f32 := iblk1 V c 0 t
abbrev bt (c : Dev nD) (t : Fin cfg1.N) : Vec Ideal S2048x1024 .f32 := iblk1 V c 1 t
abbrev bw (c : Dev nD) (t : Fin cfg1.N) : Vec Ideal S1x128 .f32 := iblk1 V c 2 t

/-- A block's contribution to the numerator and to the denominator. -/
def numBlk (c : Dev nD) (t : Fin cfg1.N) : EReal :=
  ∑ y, wtB (bx V c t) (bt V c t) (bw V c t) y * Cert.GHM.bce (bx V c t y) (bt V c t y)
def denBlk (c : Dev nD) (t : Fin cfg1.N) : EReal := ∑ y, wtB (bx V c t) (bt V c t) (bw V c t) y

theorem hN : cfg1.N = 16 := N_1
theorem hpos : 0 < cfg1.N := by rw [hN]; decide

theorem zero_apply : (zero11 : Vec Ideal S1x1 .f32) (ix2 0 0) = 0 := Ideal.ofBits_zero_f32

/-- The first point. -/
theorem first (c : Dev nD) :
    (outsAt1 V c 0 hpos).1 (ix2 0 0) = 0 + numBlk V c ⟨0, hpos⟩
    ∧ (outsAt1 V c 0 hpos).2 (ix2 0 0) = 0 + denBlk V c ⟨0, hpos⟩ := by
  have e := outsAt1_A V c ⟨0, hpos⟩ rfl
  dsimp only at e
  rw [e]
  dsimp only
  rw [out_A_3 c (grid1.coords ⟨0, hpos⟩) (ms1_0 ⟨0, hpos⟩) (hs1_0 ⟨0, hpos⟩) (ms1_1 ⟨0, hpos⟩) (hs1_1 ⟨0, hpos⟩) (ms1_2 ⟨0, hpos⟩) (hs1_2 ⟨0, hpos⟩) (ms1_3 ⟨0, hpos⟩) (hs1_3 ⟨0, hpos⟩) (ms1_4 ⟨0, hpos⟩) (hs1_4 ⟨0, hpos⟩) ((hcond1_0 ⟨0, hpos⟩).mpr rfl) (iblk1 V c 0 ⟨0, hpos⟩) (iblk1 V c 1 ⟨0, hpos⟩) (iblk1 V c 2 ⟨0, hpos⟩),
    out_A_4 c (grid1.coords ⟨0, hpos⟩) (ms1_0 ⟨0, hpos⟩) (hs1_0 ⟨0, hpos⟩) (ms1_1 ⟨0, hpos⟩) (hs1_1 ⟨0, hpos⟩) (ms1_2 ⟨0, hpos⟩) (hs1_2 ⟨0, hpos⟩) (ms1_3 ⟨0, hpos⟩) (hs1_3 ⟨0, hpos⟩) (ms1_4 ⟨0, hpos⟩) (hs1_4 ⟨0, hpos⟩) ((hcond1_0 ⟨0, hpos⟩).mpr rfl) (iblk1 V c 0 ⟨0, hpos⟩) (iblk1 V c 1 ⟨0, hpos⟩) (iblk1 V c 2 ⟨0, hpos⟩)]
  exact ⟨(numStep_apply _ _ _ _).trans (by rw [zero_apply]; rfl), (denStep_apply _ _ _ _).trans (by rw [zero_apply]; rfl)⟩

/-- A later point. -/
theorem step (c : Dev nD) (n : ℕ) (h : n + 1 < cfg1.N) :
    (outsAt1 V c (n + 1) h).1 (ix2 0 0) = (outsAt1 V c n (Nat.lt_of_succ_lt h)).1 (ix2 0 0) + numBlk V c ⟨n + 1, h⟩
    ∧ (outsAt1 V c (n + 1) h).2 (ix2 0 0) = (outsAt1 V c n (Nat.lt_of_succ_lt h)).2 (ix2 0 0) + denBlk V c ⟨n + 1, h⟩ := by
  have hlt : n + 1 < 16 := lt_of_lt_of_eq h hN
  have hB : ¬(⟨n + 1, h⟩ : Fin cfg1.N).val % 16 = 0 := by dsimp only; omega
  have e := outsAt1_B V c ⟨n + 1, h⟩ hB
  dsimp only at e
  rw [e]
  dsimp only
  rw [out_B_3 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) _ _,
    out_B_4 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) _ _]
  exact ⟨numStep_apply _ _ _ _, denStep_apply _ _ _ _⟩

/-- After the last point: the totals over the sixteen blocks. -/
theorem numer_eq (c : Dev nD) : KFinal.numer V c (ix2 0 0) = ∑ t : Fin cfg1.N, numBlk V c t := by
  have key := Cert.Lib.BatchNorm.running_total_fin_last hpos
    (fun t : Fin cfg1.N => (outsAt1 V c t.val t.isLt).1 (ix2 0 0)) (numBlk V c) 0 (first V c).1 (fun n h => (step V c n h).1)
  rw [zero_add] at key
  exact key

theorem denom_eq (c : Dev nD) : KFinal.denom V c (ix2 0 0) = ∑ t : Fin cfg1.N, denBlk V c t := by
  have key := Cert.Lib.BatchNorm.running_total_fin_last hpos
    (fun t : Fin cfg1.N => (outsAt1 V c t.val t.isLt).2 (ix2 0 0)) (denBlk V c) 0 (first V c).2 (fun n h => (step V c n h).2)
  rw [zero_add] at key
  exact key

end Cert.KernelIdeal.KAcc1

end
-- ==== Proof.KHost.lean ====
/-
  The host operations between the two regions, read stretch by stretch at any contents `G` of the buffers: from the
  histogram array the first region leaves, the thirty counts (its first thirty lanes), the non-empty mask `count > 0`,
  the updated accumulator ½·acc + ½·count where the bin is non-empty, the guarded divisor, the weight N / divisor
  where the bin is non-empty and 0 elsewhere, and that row of thirty weights written into the first thirty lanes of a
  zero [1, 128] row. No stretch writes a buffer an earlier one produced, so each value is carried to where it is read.
-/
import proofs.«117752_j42417097016426_1_alg».proof.Proof.Gen.KernelIdeal.Frame
import Idealize.ShloMosaic.Lib.StableHlo.Run

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]
variable (G : Valuation τ sig (Elt F))

/-- The thirty counts: the first thirty lanes of the histogram row, as a vector. -/
def counts (h : (⟨S1x128, .f32⟩ : BufTy).Contents (Elt F)) : (⟨S30, .f32⟩ : BufTy).Contents (Elt F) :=
  shapeCast S30 (extractStridedSlice S1x30 ![0, 0] h slices_S1x128_S1x30_0_0) shapeCasts_S1x30_S30

/-- The non-empty mask. -/
def nonempty (cn : (⟨S30, .f32⟩ : BufTy).Contents (Elt F)) : (⟨S30, .i1⟩ : BufTy).Contents (Elt F) :=
  cmpf .ogt cn (broadcastInDim S30 ![] bcast_S_S30 (constant S_ .f32 0x00000000#32))

/-- ½·acc + ½·count. -/
def blend (cn a : (⟨S30, .f32⟩ : BufTy).Contents (Elt F)) : (⟨S30, .f32⟩ : BufTy).Contents (Elt F) :=
  addf (mulf (broadcastInDim S30 ![] bcast_S_S30 (constant S_ .f32 0x3F000000#32)) a)
    (mulf (broadcastInDim S30 ![] bcast_S_S30 (constant S_ .f32 0x3F000000#32)) cn)

/-- The row of thirty bin weights from the counts and the accumulator. -/
def binWeights (cn a : (⟨S30, .f32⟩ : BufTy).Contents (Elt F)) : (⟨S30, .f32⟩ : BufTy).Contents (Elt F) :=
  select (nonempty cn)
    (Host.divf (broadcastInDim S30 ![] bcast_S_S30 (constant S_ .f32 0x4C000000#32))
      (select (nonempty cn) (select (nonempty cn) (blend cn a) a)
        (broadcastInDim S30 ![] bcast_S_S30 (constant S_ .f32 0x3F800000#32))))
    (broadcastInDim S30 ![] bcast_S_S30 (constant S_ .f32 0x00000000#32))

theorem s1_v4 : StableHlo.after hostOps1 G (Proc.devRef .tc main_v4) = counts (G (Proc.devRef .tc main_v2)) := by
  after_results; rfl

theorem s1_v6 : StableHlo.after hostOps1 G (Proc.devRef .tc main_v6) = nonempty (counts (G (Proc.devRef .tc main_v2))) := by
  after_results; rfl

theorem s1_v11 : StableHlo.after hostOps1 G (Proc.devRef .tc main_v11)
    = blend (counts (G (Proc.devRef .tc main_v2))) (G (Proc.devRef .tc main_arg2)) := by
  after_results; rfl

theorem s1_arg2 : StableHlo.after hostOps1 G (Proc.devRef .tc main_arg2) = G (Proc.devRef .tc main_arg2) := by
  after_results

theorem s1_v6' : StableHlo.after hostOps1 G (Proc.devRef .tc main_v6) = nonempty (counts (G (Proc.devRef .tc main_v2))) := s1_v6 G

/-! The second stretch: the first select. -/
theorem s2_v12 : StableHlo.after hostOps1_1 G (Proc.devRef .tc main_v12)
    = (select (G (Proc.devRef .tc main_v6)) (G (Proc.devRef .tc main_v11)) (G (Proc.devRef .tc main_arg2)) : (⟨S30, .f32⟩ : BufTy).Contents (Elt F)) := by
  after_results; rfl
theorem s2_v6 : StableHlo.after hostOps1_1 G (Proc.devRef .tc main_v6) = G (Proc.devRef .tc main_v6) := by
  after_results

/-! The third: the constant 1. -/
theorem s3_cst : StableHlo.after hostOps1_2 G (Proc.devRef .tc main_cst_2) = (constant S_ .f32 0x3F800000#32 : (⟨S_, .f32⟩ : BufTy).Contents (Elt F)) := by
  after_results
theorem s3_v6 : StableHlo.after hostOps1_2 G (Proc.devRef .tc main_v6) = G (Proc.devRef .tc main_v6) := by
  after_results
theorem s3_v12 : StableHlo.after hostOps1_2 G (Proc.devRef .tc main_v12) = G (Proc.devRef .tc main_v12) := by
  after_results

/-! The fourth: the guarded divisor. -/
theorem s4_v13 : StableHlo.after hostOps1_3 G (Proc.devRef .tc main_v13)
    = (select (G (Proc.devRef .tc main_v6)) (G (Proc.devRef .tc main_v12))
        (broadcastInDim S30 ![] bcast_S_S30 (G (Proc.devRef .tc main_cst_2))) : (⟨S30, .f32⟩ : BufTy).Contents (Elt F)) := by
  after_results; rfl
theorem s4_v6 : StableHlo.after hostOps1_3 G (Proc.devRef .tc main_v6) = G (Proc.devRef .tc main_v6) := by
  after_results

/-! The fifth: the quotient and the constant 0. -/
theorem s5_v15 : StableHlo.after hostOps1_4 G (Proc.devRef .tc main_v15)
    = (Host.divf (broadcastInDim S30 ![] bcast_S_S30 (constant S_ .f32 0x4C000000#32)) (G (Proc.devRef .tc main_v13)) : (⟨S30, .f32⟩ : BufTy).Contents (Elt F)) := by
  after_results
theorem s5_cst : StableHlo.after hostOps1_4 G (Proc.devRef .tc main_cst_4) = (constant S_ .f32 0x00000000#32 : (⟨S_, .f32⟩ : BufTy).Contents (Elt F)) := by
  after_results
theorem s5_v6 : StableHlo.after hostOps1_4 G (Proc.devRef .tc main_v6) = G (Proc.devRef .tc main_v6) := by
  after_results

/-! The sixth: the last select. -/
theorem s6_v16 : StableHlo.after hostOps1_5 G (Proc.devRef .tc main_v16)
    = (select (G (Proc.devRef .tc main_v6)) (G (Proc.devRef .tc main_v15))
        (broadcastInDim S30 ![] bcast_S_S30 (G (Proc.devRef .tc main_cst_4))) : (⟨S30, .f32⟩ : BufTy).Contents (Elt F)) := by
  after_results; rfl

end Cert.KernelIdeal.KHost

end
-- ==== Proof.KScatter.lean ====
/-
  A row of thirty values written into the first thirty lanes of a [1, 128] row. The write is a scatter with one start
  index (0, 0) whose update window runs along the lanes: update n lands on lane n, no two updates on one lane, so lane
  b < 30 of the result holds update b. Stated first for any left fold of "replace the element at the landing index",
  then for this scatter.
-/
import proofs.«117752_j42417097016426_1_alg».proof.Proof.Gen.KernelIdeal.Frame
import Idealize.ShloMosaic.Lib.ValueIdx

noncomputable section

namespace Cert.KernelIdeal.KScatter

open Cert.KernelIdeal Cert.KernelIdeal.Gen
open Idealize.ShloMosaic Idealize.ShloMosaic.ValueIdx

section Fold
variable {κ ι α : Type} [DecidableEq ι] (land : κ → Option ι) (upd : κ → α)

/-- One step of the fold: update `n` replaces the element at its landing index, if it has one. -/
def step (r : ι → α) (n : κ) : ι → α :=
  match land n with
  | some j => fun i' => if i' = j then (fun (_ : α) (b : α) => b) (r j) (upd n) else r i'
  | none => r

theorem step_miss (r : ι → α) (n : κ) (i : ι) (h : land n ≠ some i) : step land upd r n i = r i := by
  unfold step
  cases hl : land n with
  | none => rfl
  | some j =>
    have : i ≠ j := fun e => h (by rw [hl, e])
    simp only [if_neg this]

theorem step_hit (r : ι → α) (n : κ) (i : ι) (h : land n = some i) : step land upd r n i = upd n := by
  unfold step
  rw [h]
  exact if_pos rfl

/-- An index no update of the list lands on keeps its element. -/
theorem foldl_miss (i : ι) : ∀ (L : List κ) (x : ι → α), (∀ n ∈ L, land n ≠ some i) →
    (L.foldl (step land upd) x) i = x i
  | [], x, _ => rfl
  | n :: L, x, h => by
    rw [List.foldl_cons, foldl_miss i L _ fun m hm => h m (List.mem_cons_of_mem _ hm)]
    exact step_miss land upd x n i (h n (List.mem_cons_self ..))

/-- An index exactly one update of the list lands on holds that update. -/
theorem foldl_hit (i : ι) : ∀ (L : List κ) (x : ι → α) (n₀ : κ), n₀ ∈ L → land n₀ = some i →
    (∀ n ∈ L, land n = some i → n = n₀) → L.Nodup → (L.foldl (step land upd) x) i = upd n₀
  | [], _, _, h, _, _, _ => absurd h (List.not_mem_nil)
  | n :: L, x, n₀, hmem, hl, huniq, hnd => by
    rw [List.foldl_cons]
    rcases List.mem_cons.mp hmem with rfl | hin
    · rw [foldl_miss land upd i L _ fun m hm e => by
        have := huniq m (List.mem_cons_of_mem _ hm) e
        exact (List.nodup_cons.mp hnd).1 (this ▸ hm)]
      exact step_hit land upd x n₀ i hl
    · exact foldl_hit i L _ n₀ hin hl (fun m hm e => huniq m (List.mem_cons_of_mem _ hm) e) (List.nodup_cons.mp hnd).2
end Fold

/-- The literal start index (0, 0). -/
def idx00 : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

theorem numel30 : S30.numel = 30 := by decide

/-- Update n lands on lane n (decided over the thirty updates). -/
theorem land : ∀ n : Fin S30.numel, scatter_S1x128_S2_S30_0_0_01_0.resultIdx? (S30.rowMajor.symm n) idx00
    = some (ix2 (0 : Fin 1) (⟨n.val, by have := n.isLt; have := numel30; omega⟩ : Fin 128)) := by
  decide +kernel

/-- Update n is entry n of the row. -/
theorem upd_idx : ∀ n : Fin S30.numel, S30.rowMajor.symm n = ix1 (⟨n.val, by have := n.isLt; have := numel30; omega⟩ : Fin 30) := by
  decide +kernel

/-- Lane b < 30 of the row written holds entry b of the thirty values. -/
theorem scatter_apply {α : Type} (x : S1x128.Idx → α) (u : S30.Idx → α) (b : Fin 30) :
    Host.scatter scatter_S1x128_S2_S30_0_0_01_0 (fun _ b => b) x idx00 u (ix2 (0 : Fin 1) (⟨b.val, by omega⟩ : Fin 128)) = u (ix1 b) := by
  let n₀ : Fin S30.numel := ⟨b.val, by rw [numel30]; exact b.isLt⟩
  have key := foldl_hit (fun n : Fin S30.numel => scatter_S1x128_S2_S30_0_0_01_0.resultIdx? (S30.rowMajor.symm n) idx00)
    (fun n => u (S30.rowMajor.symm n)) (ix2 (0 : Fin 1) (⟨b.val, by omega⟩ : Fin 128)) (List.finRange S30.numel) x n₀
    (List.mem_finRange _) (land n₀)
    (fun n _ e => by
      rw [land n] at e
      have := congrFun (Option.some.inj e) 1
      exact Fin.ext (by simpa [ix2] using congrArg Fin.val this))
    (List.nodup_finRange _)
  rw [upd_idx n₀] at key
  exact key

end Cert.KernelIdeal.KScatter

end
-- ==== Proof.KHost2.lean ====
/-
  The row of bin weights the second region reads, traced back through the seven host stretches to what the first
  region leaves: it is the zero [1, 128] row with the thirty bin weights — computed from the histogram's first thirty
  lanes and the accumulator argument — written into its first thirty lanes.
-/
import proofs.«117752_j42417097016426_1_alg».proof.Proof.KHost
import proofs.«117752_j42417097016426_1_alg».proof.Proof.KScatter

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-- The seventh stretch: the thirty weights written into a zero row at lanes 0 … 29. -/
theorem s7_v21 (G : Valuation τ sig (Elt F)) : StableHlo.after hostOps1_6 G (Proc.devRef .tc main_v21)
    = (Host.scatter scatter_S1x128_S2_S30_0_0_01_0 (fun _ b => b)
        (broadcastInDim S1x128 ![] bcast_S_S1x128 (constant S_ .f32 0x00000000#32)) KScatter.idx00
        (G (Proc.devRef .tc main_v16)) : (⟨S1x128, .f32⟩ : BufTy).Contents (Elt F)) := by
  after_results; rfl

variable (m : (ℓ : Loc nD τ sig) → Buf (Elt F) ℓ) (ρ : Dev nD → PrngReg)

/-- The row of weights at the second region's entry. -/
theorem v21_eq (c : Dev nD) : W9 m ρ c (Proc.devRef .tc main_v21)
    = (Host.scatter scatter_S1x128_S2_S30_0_0_01_0 (fun _ b => b)
        (broadcastInDim S1x128 ![] bcast_S_S1x128 (constant S_ .f32 0x00000000#32)) KScatter.idx00
        (binWeights (counts (W2 m ρ c (Proc.devRef .tc main_v2))) (W2 m ρ c (Proc.devRef .tc main_arg2))) :
          (⟨S1x128, .f32⟩ : BufTy).Contents (Elt F)) := by
  unfold W9 W8 W7 W6 W5 W4 W3
  rw [s7_v21, s6_v16, s5_v15, s5_cst, s5_v6, s4_v13, s4_v6, s3_cst, s3_v6, s3_v12, s2_v12, s2_v6, s1_v6, s1_v11, s1_arg2]
  rfl

end Cert.KernelIdeal.KHost

end
-- ==== Proof.KInputs.lean ====
/-
  The arrays the regions read, traced back to the arguments. The [32768, 1024] arrays of logits and of targets are the
  two [32, 1024, 1024] arguments re-indexed in row-major order by the first host stretch; the first region reads them
  and writes neither, and no later stretch writes them, so the second region finds them as the first did. The
  accumulator argument is read by the stretches between the regions as launched.
-/
import proofs.«117752_j42417097016426_1_alg».proof.Proof.Gen.KernelIdeal.Frame
import Idealize.ShloMosaic.Lib.StableHlo.Run
import Idealize.ShloMosaic.Lib.Pipeline.Value

noncomputable section

namespace Cert.KernelIdeal.KInputs

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

theorem keep_main_v0_1 (G : Valuation τ sig (Elt F)) : StableHlo.after hostOps1 G (Proc.devRef .tc main_v0) = G (Proc.devRef .tc main_v0) := by
  after_results
theorem keep_main_v0_2 (G : Valuation τ sig (Elt F)) : StableHlo.after hostOps1_1 G (Proc.devRef .tc main_v0) = G (Proc.devRef .tc main_v0) := by
  after_results
theorem keep_main_v0_3 (G : Valuation τ sig (Elt F)) : StableHlo.after hostOps1_2 G (Proc.devRef .tc main_v0) = G (Proc.devRef .tc main_v0) := by
  after_results
theorem keep_main_v0_4 (G : Valuation τ sig (Elt F)) : StableHlo.after hostOps1_3 G (Proc.devRef .tc main_v0) = G (Proc.devRef .tc main_v0) := by
  after_results
theorem keep_main_v0_5 (G : Valuation τ sig (Elt F)) : StableHlo.after hostOps1_4 G (Proc.devRef .tc main_v0) = G (Proc.devRef .tc main_v0) := by
  after_results
theorem keep_main_v0_6 (G : Valuation τ sig (Elt F)) : StableHlo.after hostOps1_5 G (Proc.devRef .tc main_v0) = G (Proc.devRef .tc main_v0) := by
  after_results
theorem keep_main_v0_7 (G : Valuation τ sig (Elt F)) : StableHlo.after hostOps1_6 G (Proc.devRef .tc main_v0) = G (Proc.devRef .tc main_v0) := by
  after_results
theorem keep_main_v1_1 (G : Valuation τ sig (Elt F)) : StableHlo.after hostOps1 G (Proc.devRef .tc main_v1) = G (Proc.devRef .tc main_v1) := by
  after_results
theorem keep_main_v1_2 (G : Valuation τ sig (Elt F)) : StableHlo.after hostOps1_1 G (Proc.devRef .tc main_v1) = G (Proc.devRef .tc main_v1) := by
  after_results
theorem keep_main_v1_3 (G : Valuation τ sig (Elt F)) : StableHlo.after hostOps1_2 G (Proc.devRef .tc main_v1) = G (Proc.devRef .tc main_v1) := by
  after_results
theorem keep_main_v1_4 (G : Valuation τ sig (Elt F)) : StableHlo.after hostOps1_3 G (Proc.devRef .tc main_v1) = G (Proc.devRef .tc main_v1) := by
  after_results
theorem keep_main_v1_5 (G : Valuation τ sig (Elt F)) : StableHlo.after hostOps1_4 G (Proc.devRef .tc main_v1) = G (Proc.devRef .tc main_v1) := by
  after_results
theorem keep_main_v1_6 (G : Valuation τ sig (Elt F)) : StableHlo.after hostOps1_5 G (Proc.devRef .tc main_v1) = G (Proc.devRef .tc main_v1) := by
  after_results
theorem keep_main_v1_7 (G : Valuation τ sig (Elt F)) : StableHlo.after hostOps1_6 G (Proc.devRef .tc main_v1) = G (Proc.devRef .tc main_v1) := by
  after_results

variable (m : (ℓ : Loc nD τ sig) → Buf (Elt F) ℓ) (ρ : Dev nD → PrngReg)

/-- The logits as the first region finds them. -/
theorem v0_entry0 (c : Dev nD) : V1 m ρ c main_v0
    = (shapeCast S32768x1024 (m ((c : Thread nD τ).loc main_arg0)) shapeCasts_S32x1024x1024_S32768x1024 : (⟨S32768x1024, .f32⟩ : BufTy).Contents (Elt F)) := by
  show StableHlo.after hostOps0 (W0 m ρ c) (Proc.devRef .tc main_v0) = _
  after_results
  rfl

/-- The targets as the first region finds them. -/
theorem v1_entry0 (c : Dev nD) : V1 m ρ c main_v1
    = (shapeCast S32768x1024 (m ((c : Thread nD τ).loc main_arg1)) shapeCasts_S32x1024x1024_S32768x1024 : (⟨S32768x1024, .f32⟩ : BufTy).Contents (Elt F)) := by
  show StableHlo.after hostOps0 (W0 m ρ c) (Proc.devRef .tc main_v1) = _
  after_results
  rfl

/-- The first region leaves its two input arrays as it found them. -/
theorem v0_exit0 (c : Dev nD) : W2 m ρ c (Proc.devRef .tc main_v0) = V1 m ρ c main_v0 :=
  (W2_arr m ρ c 0).trans ((dat0 (V1 m ρ) c).arrAt_in 0 rfl _)
theorem v1_exit0 (c : Dev nD) : W2 m ρ c (Proc.devRef .tc main_v1) = V1 m ρ c main_v1 :=
  (W2_arr m ρ c 1).trans ((dat0 (V1 m ρ) c).arrAt_in 1 rfl _)

/-- The logits and targets as the second region finds them. -/
theorem v0_entry1 (c : Dev nD) : V9 m ρ c main_v0 = V1 m ρ c main_v0 := by
  show W9 m ρ c (Proc.devRef .tc main_v0) = _
  unfold W9 W8 W7 W6 W5 W4 W3
  rw [keep_main_v0_7, keep_main_v0_6, keep_main_v0_5, keep_main_v0_4, keep_main_v0_3, keep_main_v0_2, keep_main_v0_1]
  exact v0_exit0 m ρ c
theorem v1_entry1 (c : Dev nD) : V9 m ρ c main_v1 = V1 m ρ c main_v1 := by
  show W9 m ρ c (Proc.devRef .tc main_v1) = _
  unfold W9 W8 W7 W6 W5 W4 W3
  rw [keep_main_v1_7, keep_main_v1_6, keep_main_v1_5, keep_main_v1_4, keep_main_v1_3, keep_main_v1_2, keep_main_v1_1]
  exact v1_exit0 m ρ c

/-- The accumulator argument as the stretches between the regions read it. -/
theorem arg2_exit0 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-- The histogram array as the stretches between the regions read it: what the first region leaves. -/
theorem v2_exit0 (c : Dev nD) : W2 m ρ c (Proc.devRef .tc main_v2) = (dat0 (V1 m ρ) c).arrAt 2 cfg0.N :=
  W2_arr m ρ c 2

end Cert.KernelIdeal.KInputs

end
-- ==== Proof.KBlocks.lean ====
/-
  The blocks the two regions read, as entries of the arrays. Both regions walk the [32768, 1024] arrays of logits and
  of targets in sixteen row blocks of 2048 rows: entry (r, j) of block t is entry (2048·t + r, j) of the array. The
  second region's third window is the whole [1, 128] row of bin weights at every point.
-/
import proofs.«117752_j42417097016426_1_alg».proof.Proof.Gen.KernelIdeal.Frame
import Idealize.ShloMosaic.Lib.Pipeline.Value
import Idealize.ShloMosaic.Lib.ValueIdx

noncomputable section

namespace Cert.KernelIdeal.KBlocks

open Cert.KernelIdeal Cert.KernelIdeal.Gen
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- Entry (r, j) of row block t, as an index of the [32768, 1024] array. -/
def row (t : ℕ) (r : Fin 2048) (j : Fin 1024) (ht : t < 16) : S32768x1024.Idx :=
  ix2 (⟨t * 2048 + r.val, by omega⟩ : Fin 32768) j

/-- Where window `w` ∈ {0, 1} of region 0 sits at point `t`: row block `t`, the one column block. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)

/-- The block of logits at point `t`: rows 2048·t … 2048·t + 2047 of the [32768, 1024] array. -/
theorem iblk0_0_apply (c : Dev nD) (t : Fin cfg0.N) (y : S2048x1024.Idx) :
    (iblk0 V c 0 t : Vec F S2048x1024 .f32) y = (V c main_v0 : S32768x1024.Idx → Elt F .f32) (row t.val (y 0) (y 1) (lt_of_lt_of_eq t.isLt N_0)) := by
  unfold iblk0
  rw [View.read_apply]
  show V c main_v0 _ = V c main_v0 _
  congr 1
  funext a
  apply Fin.ext
  match a with
  | ⟨0, _⟩ => show win0_0.index t 0 * 2048 + 1 * (y 0).val = t.val * 2048 + (y 0).val; rw [(idx0_0 t).1]; omega
  | ⟨1, _⟩ => show win0_0.index t 1 * 1024 + 1 * (y 1).val = (y 1).val; rw [(idx0_0 t).2]; omega

/-- The block of targets at point `t`, likewise. -/
theorem iblk0_1_apply (c : Dev nD) (t : Fin cfg0.N) (y : S2048x1024.Idx) :
    (iblk0 V c 1 t : Vec F S2048x1024 .f32) y = (V c main_v1 : S32768x1024.Idx → Elt F .f32) (row t.val (y 0) (y 1) (lt_of_lt_of_eq t.isLt N_0)) := by
  unfold iblk0
  rw [View.read_apply]
  show V c main_v1 _ = V c main_v1 _
  congr 1
  funext a
  apply Fin.ext
  match a with
  | ⟨0, _⟩ => show win0_1.index t 0 * 2048 + 1 * (y 0).val = t.val * 2048 + (y 0).val; rw [(idx0_1 t).1]; omega
  | ⟨1, _⟩ => show win0_1.index t 1 * 1024 + 1 * (y 1).val = (y 1).val; rw [(idx0_1 t).2]; omega

/-- Where window `w` ∈ {0, 1} of region 1 sits at point `t`: row block `t`, the one column block. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)

/-- The block of logits at point `t`: rows 2048·t … 2048·t + 2047 of the [32768, 1024] array. -/
theorem iblk1_0_apply (c : Dev nD) (t : Fin cfg1.N) (y : S2048x1024.Idx) :
    (iblk1 V c 0 t : Vec F S2048x1024 .f32) y = (V c main_v0 : S32768x1024.Idx → Elt F .f32) (row t.val (y 0) (y 1) (lt_of_lt_of_eq t.isLt N_1)) := by
  unfold iblk1
  rw [View.read_apply]
  show V c main_v0 _ = V c main_v0 _
  congr 1
  funext a
  apply Fin.ext
  match a with
  | ⟨0, _⟩ => show win1_0.index t 0 * 2048 + 1 * (y 0).val = t.val * 2048 + (y 0).val; rw [(idx1_0 t).1]; omega
  | ⟨1, _⟩ => show win1_0.index t 1 * 1024 + 1 * (y 1).val = (y 1).val; rw [(idx1_0 t).2]; omega

/-- The block of targets at point `t`, likewise. -/
theorem iblk1_1_apply (c : Dev nD) (t : Fin cfg1.N) (y : S2048x1024.Idx) :
    (iblk1 V c 1 t : Vec F S2048x1024 .f32) y = (V c main_v1 : S32768x1024.Idx → Elt F .f32) (row t.val (y 0) (y 1) (lt_of_lt_of_eq t.isLt N_1)) := by
  unfold iblk1
  rw [View.read_apply]
  show V c main_v1 _ = V c main_v1 _
  congr 1
  funext a
  apply Fin.ext
  match a with
  | ⟨0, _⟩ => show win1_1.index t 0 * 2048 + 1 * (y 0).val = t.val * 2048 + (y 0).val; rw [(idx1_1 t).1]; omega
  | ⟨1, _⟩ => show win1_1.index t 1 * 1024 + 1 * (y 1).val = (y 1).val; rw [(idx1_1 t).2]; omega

/-- The row of bin weights the second region sees at every point is the whole array. -/
theorem iblk1_2_apply (c : Dev nD) (t : Fin cfg1.N) (y : S1x128.Idx) :
    (iblk1 V c 2 t : Vec F S1x128 .f32) y = (V c main_v21 : S1x128.Idx → Elt F .f32) y := by
  have hi : ∀ t : Fin cfg1.N, win1_2.index t 0 = 0 ∧ win1_2.index t 1 = 0 :=
    (by decide +kernel : ∀ t : Fin grid1.N, win1_2.index t 0 = 0 ∧ win1_2.index t 1 = 0)
  unfold iblk1
  rw [View.read_apply]
  show V c main_v21 _ = V c main_v21 _
  congr 1
  funext a
  apply Fin.ext
  match a with
  | ⟨0, _⟩ => show win1_2.index t 0 * 1 + 1 * (y 0).val = (y 0).val; rw [(hi t).1]; omega
  | ⟨1, _⟩ => show win1_2.index t 1 * 128 + 1 * (y 1).val = (y 1).val; rw [(hi t).2]; omega

end Cert.KernelIdeal.KBlocks

end
-- ==== Proof.KSum.lean ====
/-
  Sums over the sixteen row blocks. The [32768, 1024] array's indices are the pairs (2048·t + r, j) with t < 16,
  r < 2048, j < 1024, each once: a sum over the sixteen blocks of the sums over each block's entries is the sum over
  the whole array. And the [32768, 1024] array is the [32, 1024, 1024] one re-indexed in row-major order, a bijection
  of the indices: so it is also the sum over the elements of the original array.
-/
import proofs.«117752_j42417097016426_1_alg».proof.Proof.KBlocks
import proofs.«117752_j42417097016426_1_alg».proof.Proof.LibBlockSum

noncomputable section

namespace Cert.KernelIdeal.KSum

open Cert.KernelIdeal Cert.KernelIdeal.Gen Cert.KernelIdeal.KBlocks
open Idealize.ShloMosaic Idealize.ShloMosaic.ValueIdx

/-- The sum over the blocks of the sums over each block is the sum over the array. -/
theorem sum_rows {M : Type} [AddCommMonoid M] (G : S32768x1024.Idx → M) :
    ∑ t : Fin 16, ∑ y : S2048x1024.Idx, G (row t.val (y 0) (y 1) t.isLt) = ∑ r : S32768x1024.Idx, G r := by
  rw [sum_idx2 G]
  rw [Cert.Lib.BatchNorm.sum_fin_mul 16 2048 (fun p : Fin (16 * 2048) => ∑ j : Fin 1024, G (ix2 (p : Fin 32768) j))]
  refine Finset.sum_congr rfl fun t _ => ?_
  rw [sum_idx2 (fun y : S2048x1024.Idx => G (row t.val (y 0) (y 1) t.isLt))]
  rfl

/-- The same with the blocks counted by a type of sixteen points. -/
theorem sum_rows' {M : Type} [AddCommMonoid M] {T : ℕ} (hT : T = 16) (G : S32768x1024.Idx → M) :
    ∑ t : Fin T, ∑ y : S2048x1024.Idx, G (row t.val (y 0) (y 1) (lt_of_lt_of_eq t.isLt hT)) = ∑ r : S32768x1024.Idx, G r := by
  subst hT
  exact sum_rows G

/-- Through the row-major re-indexing of [32, 1024, 1024] as [32768, 1024]: the sum over the elements. -/
theorem sum_elems {M : Type} [AddCommMonoid M] {T : ℕ} (hT : T = 16) (h : S32x1024x1024.ShapeCasts S32768x1024)
    (g : S32x1024x1024.Idx → M) :
    ∑ t : Fin T, ∑ y : S2048x1024.Idx, g (Shape.reshapeEquiv h (row t.val (y 0) (y 1) (lt_of_lt_of_eq t.isLt hT)))
      = ∑ e : S32x1024x1024.Idx, g e := by
  rw [sum_rows' hT (fun r => g (Shape.reshapeEquiv h r))]
  exact Equiv.sum_comp (Shape.reshapeEquiv h) g

end Cert.KernelIdeal.KSum

end
-- ==== Proof.KTail.lean ====
/-
  The last host stretch: the scalar result is the quotient of the two accumulators the second region leaves, each a
  [1,1] array read as a scalar.
-/
import proofs.«117752_j42417097016426_1_alg».proof.Proof.Gen.KernelIdeal.Frame
import Idealize.ShloMosaic.Lib.StableHlo.Run

noncomputable section

namespace Cert.KernelIdeal.KTail

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The result buffer after the last stretch: the numerator array over the denominator array, both as the second
    region leaves them. -/
theorem result_eq (c : Dev nD) :
    W11 m ρ c (Proc.devRef .tc main_v25)
      = (Host.divf (shapeCast S_ ((dat1 (V9 m ρ) c).arrAt 3 cfg1.N) shapeCasts_S1x1_S_)
          (shapeCast S_ ((dat1 (V9 m ρ) c).arrAt 4 cfg1.N) shapeCasts_S1x1_S_) : (⟨S_, .f32⟩ : BufTy).Contents (Elt F)) := by
  show StableHlo.after hostOps2 (W10 m ρ c) (Proc.devRef .tc main_v25) = _
  after_results
  rw [show W10 m ρ c (Proc.devRef .tc main_v22_0) = (dat1 (V9 m ρ) c).arrAt 3 cfg1.N from W10_arr m ρ c 3,
    show W10 m ρ c (Proc.devRef .tc main_v22_1) = (dat1 (V9 m ρ) c).arrAt 4 cfg1.N from W10_arr m ρ c 4]
  rfl

end Cert.KernelIdeal.KTail

end
-- ==== Proof.KValue.lean ====
/-
  The idealized kernel's result as a function of its arguments. With x, t the logits and targets (the [32, 1024, 1024]
  arguments) and acc the thirty accumulators: every block entry the regions read is an element of x or of t; the
  histogram the first region leaves counts, lane by lane, the elements of each bin; the row of weights the second
  region reads holds each bin's weight; the weight chain of an element is its specification weight; and the two
  accumulators after the last point are the sums over all elements of weight × cross-entropy and of the weights. The
  result is their quotient: the specification's `lossK`.
-/
import proofs.«117752_j42417097016426_1_alg».proof.Proof.KAcc1
import proofs.«117752_j42417097016426_1_alg».proof.Proof.KHost2
import proofs.«117752_j42417097016426_1_alg».proof.Proof.KInputs
import proofs.«117752_j42417097016426_1_alg».proof.Proof.KSum
import proofs.«117752_j42417097016426_1_alg».proof.Proof.KTail
import proofs.«117752_j42417097016426_1_alg».proof.Proof.Spec

noncomputable section

namespace Cert.KernelIdeal.KValue

open Cert.KernelIdeal Cert.KernelIdeal.Gen Cert.KernelIdeal.KBlocks Cert.KernelIdeal.KVal1 Cert.KernelIdeal.KAcc1
open Idealize.ShloMosaic Idealize.ShloMosaic.TcCoe Idealize.ShloMosaic.ValueIdx Idealize.SL.Sem

variable (m : (ℓ : Loc nD τ sig) → Buf (Elt Ideal) ℓ) (ρ : Dev nD → PrngReg)

/-- The logits, the targets, the accumulators. -/
abbrev xs (c : Dev nD) : S32x1024x1024.Idx → EReal := m ((c : Thread nD τ).loc main_arg0)
abbrev ts (c : Dev nD) : S32x1024x1024.Idx → EReal := m ((c : Thread nD τ).loc main_arg1)
abbrev accs (c : Dev nD) : Fin 30 → EReal := fun b => (m ((c : Thread nD τ).loc main_arg2) : S30.Idx → EReal) (ix1 b)

/-- The element of the [32, 1024, 1024] arrays at entry (r, j) of row block t. -/
def elem (t : ℕ) (r : Fin 2048) (j : Fin 1024) (ht : t < 16) : S32x1024x1024.Idx :=
  Shape.reshapeEquiv shapeCasts_S32x1024x1024_S32768x1024 (row t r j ht)

/-! ## The blocks are elements -/

theorem bx0 (c : Dev nD) (t : Fin cfg0.N) (y : S2048x1024.Idx) :
    (iblk0 (V1 m ρ) c 0 t : Vec Ideal S2048x1024 .f32) y = xs m c (elem t.val (y 0) (y 1) (lt_of_lt_of_eq t.isLt N_0)) := by
  rw [iblk0_0_apply, KInputs.v0_entry0]; rfl
theorem bt0 (c : Dev nD) (t : Fin cfg0.N) (y : S2048x1024.Idx) :
    (iblk0 (V1 m ρ) c 1 t : Vec Ideal S2048x1024 .f32) y = ts m c (elem t.val (y 0) (y 1) (lt_of_lt_of_eq t.isLt N_0)) := by
  rw [iblk0_1_apply, KInputs.v1_entry0]; rfl
theorem bx1 (c : Dev nD) (t : Fin cfg1.N) (y : S2048x1024.Idx) :
    bx (V9 m ρ) c t y = xs m c (elem t.val (y 0) (y 1) (lt_of_lt_of_eq t.isLt N_1)) := by
  unfold bx
  rw [iblk1_0_apply, KInputs.v0_entry1, KInputs.v0_entry0]; rfl
theorem bt1 (c : Dev nD) (t : Fin cfg1.N) (y : S2048x1024.Idx) :
    bt (V9 m ρ) c t y = ts m c (elem t.val (y 0) (y 1) (lt_of_lt_of_eq t.isLt N_1)) := by
  unfold bt
  rw [iblk1_1_apply, KInputs.v1_entry1, KInputs.v1_entry0]; rfl

/-! ## The row of weights -/

/-- Entry b of the thirty counts is lane b of the histogram row. -/
theorem counts_apply (h : (⟨S1x128, .f32⟩ : BufTy).Contents (Elt Ideal)) (b : Fin 30) :
    (KHost.counts h : S30.Idx → EReal) (ix1 b) = (h : S1x128.Idx → EReal) (ix2 (0 : Fin 1) (⟨b.val, by omega⟩ : Fin 128)) := by
  unfold KHost.counts
  rw [shapeCast_apply _ _ (ix1 b) (ix2 (0 : Fin 1) b) (by rw [Shape.rowMajor_val_two, Shape.rowMajor_val_one]; simp)]
  unfold extractStridedSlice
  refine congrArg h (funext fun a => Fin.ext ?_)
  match a with
  | ⟨0, _⟩ => rfl
  | ⟨1, _⟩ => simp

/-- Entry b of the row of bin weights is the specification's weight of that count and accumulator. -/
theorem binWeights_apply (cn a : (⟨S30, .f32⟩ : BufTy).Contents (Elt Ideal)) (b : Fin 30) :
    (KHost.binWeights cn a : S30.Idx → EReal) (ix1 b) = Cert.GHM.binW ((cn : S30.Idx → EReal) (ix1 b)) ((a : S30.Idx → EReal) (ix1 b)) := by
  rfl

/-- Lane b < 30 of the row the second region reads is the weight of bin b, given that the histogram counts the bins. -/
theorem w_lane (c : Dev nD)
    (hcnt : ∀ b : Fin 30, (KFinal.hist (V1 m ρ) c : S1x128.Idx → EReal) (ix2 (0 : Fin 1) (⟨b.val, by omega⟩ : Fin 128))
      = Cert.GHM.cnt (xs m c) (ts m c) b) (b : Fin 30) :
    (V9 m ρ c main_v21 : S1x128.Idx → EReal) (ix2 (0 : Fin 1) (⟨b.val, by omega⟩ : Fin 128))
      = Cert.GHM.wBin (xs m c) (ts m c) (accs m c) b := by
  show (W9 m ρ c (Proc.devRef .tc main_v21) : S1x128.Idx → EReal) _ = _
  rw [KHost.v21_eq, KScatter.scatter_apply, binWeights_apply, counts_apply, KInputs.v2_exit0, KFinal.final0_2, hcnt b,
    KInputs.arg2_exit0]
  rfl

/-! ## The weight of an element, and the totals -/

section Totals
variable (c : Dev nD)
  (hcnt : ∀ b : Fin 30, (KFinal.hist (V1 m ρ) c : S1x128.Idx → EReal) (ix2 (0 : Fin 1) (⟨b.val, by omega⟩ : Fin 128))
    = Cert.GHM.cnt (xs m c) (ts m c) b)
include hcnt

/-- The weight chain of a block entry is the specification weight of that element. -/
theorem wtB_eq (t : Fin cfg1.N) (y : S2048x1024.Idx) :
    wtB (bx (V9 m ρ) c t) (bt (V9 m ρ) c t) (bw (V9 m ρ) c t) y
      = Cert.GHM.wt (xs m c) (ts m c) (accs m c) (elem t.val (y 0) (y 1) (lt_of_lt_of_eq t.isLt N_1)) := by
  unfold wtB Cert.GHM.wt
  rw [Finset.sum_range]
  refine Finset.sum_congr rfl fun b _ => ?_
  rw [bx1, bt1]
  refine congrArg (_ * ·) ?_
  unfold lane
  rw [dif_pos (by have := b.isLt; omega : b.val < 128)]
  unfold bw
  rw [iblk1_2_apply]
  exact w_lane m ρ c hcnt b

/-- The numerator: the sum over all elements of weight × cross-entropy. -/
theorem num_total : ∑ t : Fin cfg1.N, numBlk (V9 m ρ) c t
    = ∑ e, Cert.GHM.wt (xs m c) (ts m c) (accs m c) e * Cert.GHM.bce (xs m c e) (ts m c e) := by
  rw [← KSum.sum_elems N_1 shapeCasts_S32x1024x1024_S32768x1024
    (fun e => Cert.GHM.wt (xs m c) (ts m c) (accs m c) e * Cert.GHM.bce (xs m c e) (ts m c e))]
  refine Finset.sum_congr rfl fun t _ => ?_
  unfold numBlk
  refine Finset.sum_congr rfl fun y _ => ?_
  rw [wtB_eq m ρ c hcnt, bx1, bt1]
  rfl

/-- The denominator: the sum over all elements of the weights. -/
theorem den_total : ∑ t : Fin cfg1.N, denBlk (V9 m ρ) c t = ∑ e, Cert.GHM.wt (xs m c) (ts m c) (accs m c) e := by
  rw [← KSum.sum_elems N_1 shapeCasts_S32x1024x1024_S32768x1024 (fun e => Cert.GHM.wt (xs m c) (ts m c) (accs m c) e)]
  refine Finset.sum_congr rfl fun t _ => ?_
  unfold denBlk
  refine Finset.sum_congr rfl fun y _ => ?_
  rw [wtB_eq m ρ c hcnt]
  rfl

omit hcnt in
/-- Every index of a [1, 1] array is (0, 0). -/
theorem idx11 (i : S1x1.Idx) : i = ix2 (0 : Fin 1) (0 : Fin 1) := by
  have h0 : (i 0 : ℕ) < 1 := (i 0).isLt
  have h1 : (i 1 : ℕ) < 1 := (i 1).isLt
  funext a
  match a with
  | ⟨0, _⟩ => exact Fin.ext (by show (i 0 : ℕ) = 0; omega)
  | ⟨1, _⟩ => exact Fin.ext (by show (i 1 : ℕ) = 0; omega)

omit hcnt in
/-- A [1, 1] array read as a scalar is its one entry. -/
theorem scalar_of_11 (v : S1x1.Idx → EReal) (h : S1x1.ShapeCasts S_) : shapeCast S_ v h ix0 = v (ix2 (0 : Fin 1) (0 : Fin 1)) := by
  unfold shapeCast
  exact congrArg v (idx11 _)

omit hcnt in
/-- The host quotient of two scalars. -/
theorem divf_scalar (a b : S_.Idx → EReal) : (Host.divf (F := Ideal) (φ := .f32) a b) ix0 = Ideal.div (a ix0) (b ix0) := rfl

/-- The result: the quotient of the totals. -/
theorem kernel_value : (W11 m ρ c (Proc.devRef .tc main_v25) : S_.Idx → EReal) ix0
    = Cert.GHM.lossK (xs m c) (ts m c) (accs m c) := by
  rw [KTail.result_eq, divf_scalar, scalar_of_11, scalar_of_11, KFinal.final1_3, KFinal.final1_4, numer_eq, denom_eq,
    num_total m ρ c hcnt, den_total m ρ c hcnt]
  rfl
end Totals

end Cert.KernelIdeal.KValue

end
-- ==== Proof.KPiece0.lean ====
/-
  The first region's body, read as values. At every grid point the body leaves in the histogram's staging buffer
  "what was there + for each of the thirty bins (the number of the block's elements in that bin) × (the indicator of
  the lane of that bin)", where an element's bin is the clipped ⌊30·|σ(x) - t|⌋ built from the block of logits and the
  block of targets; at the first point "what was there" is the zero row the body has just stored. The step is named
  here as the body's own arithmetic (the generated payload terms composed), at any float instance; the next module
  reads it at a lane over the extended reals.
-/
import proofs.«117752_j42417097016426_1_alg».proof.Proof.Gen.KernelIdeal.Frame
import Idealize.ShloMosaic.Lib.Pipeline.Value
import Idealize.ShloMosaic.Lib.Tactic

noncomputable section

namespace Cert.KernelIdeal.KPiece0

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The lane numbers 0 … 127 of the histogram row. -/
abbrev lanes : IVec S1x128 32 := iota Kind.tc S1x128 32 [1] iota_S1x128_d1_w32

/-- The histogram row after a point: what was there plus, bin by bin, the block's count of the bin at the bin's lane. -/
def histStep (x0 x1 : Vec F S2048x1024 .f32) (xo : Vec F S1x128 .f32) : FVec F S1x128 .f32 :=
  k0_pay1 (k0_pay3 x0 x1) lanes
      (k0_pay23 (k0_pay3 x0 x1) lanes
        (k0_pay20 (k0_pay3 x0 x1) lanes
          (k0_pay18 (k0_pay3 x0 x1) lanes
            (k0_pay16 (k0_pay3 x0 x1) lanes
              (k0_pay13 (k0_pay3 x0 x1) lanes
                (k0_pay11 (k0_pay3 x0 x1) lanes
                  (k0_pay9 (k0_pay3 x0 x1) lanes
                    (k0_pay6 (k0_pay3 x0 x1) lanes (k0_pay4 x0 x1)
                      (k0_pay5 x0 x1))
                    (k0_pay7 lanes) (k0_pay8 (k0_pay3 x0 x1)))
                  (k0_pay10 (k0_pay3 x0 x1)))
                (k0_pay12 (k0_pay3 x0 x1)))
              (k0_pay14 lanes) (k0_pay15 (k0_pay3 x0 x1)))
            (k0_pay17 (k0_pay3 x0 x1)))
          (k0_pay19 (k0_pay3 x0 x1)))
        (k0_pay21 lanes) (k0_pay22 (k0_pay3 x0 x1)))
      (k0_pay24 (k0_pay3 x0 x1)) xo

/-- The zero row a first point stores before it accumulates. -/
abbrev zeroRow : Vec F S1x128 .f32 := broadcast S1x128 (Scalar.ofBits .f32 0x00000000#32)

theorem out_B_2 (c : Dev nD) (i : grid0.Coords) (a1 : Memref sig .tc .vmem S2048x1024 .f32) (h1 : a1.IsWhole) (a2 : Memref sig .tc .vmem S2048x1024 .f32) (h2 : a2.IsWhole) (a3 : Memref sig .tc .vmem S1x128 .f32) (h3 : a3.IsWhole) (hc : ¬cond0_0 i)
    (x0 x1 : Vec F S2048x1024 .f32) (xo : Vec F S1x128 .f32) :
    out0_B_2 c i a1 h1 a2 h2 a3 h3 hc x0 x1 xo = histStep x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S2048x1024) hz, View.ld_unit_zero (S := S1x128) hz]
  rfl

theorem out_A_2 (c : Dev nD) (i : grid0.Coords) (a1 : Memref sig .tc .vmem S2048x1024 .f32) (h1 : a1.IsWhole) (a2 : Memref sig .tc .vmem S2048x1024 .f32) (h2 : a2.IsWhole) (a3 : Memref sig .tc .vmem S1x128 .f32) (h3 : a3.IsWhole) (hc : cond0_0 i)
    (x0 x1 : Vec F S2048x1024 .f32) :
    out0_A_2 c i a1 h1 a2 h2 a3 h3 hc x0 x1 = histStep x0 x1 zeroRow := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S2048x1024) hz, View.ld_unit_zero (S := S1x128) hz]
  rfl

end Cert.KernelIdeal.KPiece0

end
-- ==== Proof.LossLaw.lean ====
/-
  The two losses agree. Every element's bin is one of the thirty words 0 … 29, so its weight is the weight of that
  bin; that bin holds the element, so its count is a positive real and, the accumulator being a non-negative real,
  its weight N / (½·acc + ½·cnt) is a positive real. The cross-entropy term of real arguments is real. With positive
  real weights w and real terms β, S = Σ w > 0 and both (Σ w·β)/S and (Σ (w/(S/N))·β)/N are the real (Σ w·β)/S.
-/
import proofs.«117752_j42417097016426_1_alg».proof.Proof.Spec
import Mathlib.Tactic

noncomputable section

namespace Cert.GHM

open Idealize.ShloMosaic

/-- A 32-bit integer clipped below at 0 and above at 29 is one of the thirty words 0 … 29. -/
theorem clip_range (v : BitVec 32) : ∃ b : Fin 30, IntOp.minsi 29#32 (IntOp.maxsi 0#32 v) = BitVec.ofNat 32 b.val := by
  have key : (IntOp.minsi 29#32 (IntOp.maxsi 0#32 v)).toNat < 30 := by
    have h29 : (29#32 : BitVec 32).toInt = 29 := by decide
    have h0 : (0#32 : BitVec 32).toInt = 0 := by decide
    have hl := v.isLt
    unfold IntOp.minsi IntOp.maxsi
    simp only [BitVec.slt, decide_eq_true_eq]
    by_cases c1 : v.toInt < (0#32 : BitVec 32).toInt
    · rw [if_pos c1, if_neg (by rw [h29, h0]; omega)]; decide
    · rw [if_neg c1]
      by_cases c2 : (29#32 : BitVec 32).toInt < v.toInt
      · rw [if_pos c2]; decide
      · rw [if_neg c2]
        rw [h0] at c1; rw [h29] at c2
        unfold BitVec.toInt at c1 c2
        split_ifs at c1 c2 <;> omega
  refine ⟨⟨_, key⟩, BitVec.eq_of_toNat_eq ?_⟩
  rw [BitVec.toNat_ofNat, Nat.mod_eq_of_lt (by omega)]

theorem ofNat_inj30 (b b' : Fin 30) : BitVec.ofNat 32 b.val = BitVec.ofNat 32 b'.val ↔ b = b' := by
  constructor
  · intro h
    have := congrArg BitVec.toNat h
    simp only [BitVec.toNat_ofNat] at this
    apply Fin.ext
    omega
  · rintro rfl; rfl

theorem ind_eq (v b : BitVec 32) : ind v b = if v = b then 1 else 0 := by
  unfold ind IntOp.cmpi
  by_cases h : v = b
  · have hb : (v == b) = true := by simp [h]
    have h1 : (BitVec.setWidth 32 (BitVec.ofBool true)).toInt = 1 := by decide
    simp only [hb, h1, if_pos h]; norm_num
  · have hb : (v == b) = false := by simp [h]
    have h1 : (BitVec.setWidth 32 (BitVec.ofBool false)).toInt = 0 := by decide
    simp only [hb, h1, if_neg h]; norm_num

theorem coe_max (a b : ℝ) : max (a : EReal) (b : EReal) = ((max a b : ℝ) : EReal) :=
  (EReal.coe_strictMono.monotone.map_max).symm

theorem kZero_eq : kZero = 0 := Ideal.ofBits_zero_f32
theorem kHalf_eq : kHalf = ((1 / 2 : ℝ) : EReal) := by
  simp [kHalf, Ideal.ofBits, Ideal.ieee, -EReal.coe_mul]; norm_num
theorem kOne_eq : kOne = ((1 : ℝ) : EReal) := by
  simp [kOne, Ideal.ofBits, Ideal.ieee, -EReal.coe_mul]; norm_num
theorem kTot_eq : kTot = ((33554432 : ℝ) : EReal) := by
  simp [kTot, Ideal.ofBits, Ideal.ieee, -EReal.coe_mul]; norm_num

/-- The cross-entropy term of two reals is a real. -/
theorem bce_real (x t : ℝ) : ∃ β : ℝ, bce (x : EReal) (t : EReal) = (β : EReal) := by
  refine ⟨max x 0 - x * t + Real.log (1 + Real.exp (-(max x (-x)))), ?_⟩
  have hpos : ¬ (1 + Real.exp (-(max x (-x))) ≤ 0) := by
    have := Real.exp_pos (-(max x (-x))); linarith
  unfold bce Ideal.log1p
  rw [kZero_eq, ← EReal.coe_zero, coe_max, ← EReal.coe_neg, coe_max, ← EReal.coe_neg, Ideal.exp_coe, ← EReal.coe_one,
    ← EReal.coe_add, Ideal.log_coe, if_neg hpos, ← EReal.coe_mul, ← EReal.coe_sub, ← EReal.coe_add]

/-- The weight of a bin with a positive count and a non-negative accumulator is a positive real. -/
theorem binW_pos {c a : ℝ} (hc : 0 < c) (ha : 0 ≤ a) : ∃ w : ℝ, 0 < w ∧ binW (c : EReal) (a : EReal) = (w : EReal) := by
  have hd : (0 : ℝ) < 1 / 2 * a + 1 / 2 * c := by positivity
  refine ⟨33554432 * (1 / (1 / 2 * a + 1 / 2 * c)), by positivity, ?_⟩
  have hcmp : Ideal.cmp .ogt (c : EReal) kZero = 1#1 := by
    rw [kZero_eq]; unfold Ideal.cmp
    have : (0 : EReal) < (c : EReal) := by exact_mod_cast hc
    simp [this]
  unfold binW
  rw [hcmp]
  unfold Scalar.select
  have e1 : ((1#1 : BitVec 1) = 1) := rfl
  simp only [if_pos e1]
  rw [kHalf_eq, kTot_eq, ← EReal.coe_mul, ← EReal.coe_mul, ← EReal.coe_add,
    Ideal.div_coe hd.ne', ← EReal.coe_mul]

/-- The image of a finite sum of reals is the sum of the images. -/
theorem coe_sum {κ : Type} (s : Finset κ) (f : κ → ℝ) : ((∑ i ∈ s, f i : ℝ) : EReal) = ∑ i ∈ s, (f i : EReal) := by
  classical
  induction s using Finset.induction_on with
  | empty => simp
  | insert k s hk ih => rw [Finset.sum_insert hk, Finset.sum_insert hk, EReal.coe_add, ih]

/-- The two ways of normalising the weighted sum agree: with positive real weights w and real terms β, both
    quotients are (Σ w·β)/(Σ w). -/
theorem loss_eq {ι : Type} [Fintype ι] [Nonempty ι] (x t : ι → EReal) (acc : Fin 30 → EReal)
    (hx : ∀ e, ∃ r : ℝ, x e = (r : EReal)) (ht : ∀ e, ∃ r : ℝ, t e = (r : EReal))
    (ha : ∀ b, ∃ r : ℝ, acc b = (r : EReal) ∧ 0 ≤ r) : lossK x t acc = lossR x t acc := by
  classical
  -- every element has a bin among the thirty
  have hbin : ∀ e, ∃ b : Fin 30, binOf (x e) (t e) = BitVec.ofNat 32 b.val := fun e => clip_range _
  choose bin hbin using hbin
  have hind : ∀ e (b : Fin 30), ind (binOf (x e) (t e)) (BitVec.ofNat 32 b.val) = if bin e = b then 1 else 0 := by
    intro e b
    rw [ind_eq, hbin e]
    simp only [ofNat_inj30]
  -- a bin's count is a real, positive when the bin holds an element
  have hcnt : ∀ b, cnt x t b = ((∑ e, (if bin e = b then (1 : ℝ) else 0) : ℝ) : EReal) := by
    intro b
    unfold cnt
    rw [coe_sum]
    refine Finset.sum_congr rfl fun e _ => ?_
    rw [hind]
    split_ifs <;> simp
  have hcpos : ∀ e, 0 < ∑ e', (if bin e' = bin e then (1 : ℝ) else 0) := by
    intro e
    have h1 := Finset.single_le_sum (f := fun e' => if bin e' = bin e then (1 : ℝ) else 0)
      (fun i _ => by split_ifs <;> norm_num) (Finset.mem_univ e)
    simp only [if_true] at h1
    linarith
  -- an element's weight is its bin's weight, a positive real
  have hwt : ∀ e, wt x t acc e = wBin x t acc (bin e) := by
    intro e
    unfold wt
    simp only [hind, ite_mul, one_mul, zero_mul]
    rw [Finset.sum_ite_eq]
    simp
  have hw : ∀ e, ∃ w : ℝ, 0 < w ∧ wt x t acc e = (w : EReal) := by
    intro e
    obtain ⟨a, ha1, ha2⟩ := ha (bin e)
    rw [hwt, wBin, hcnt, ha1]
    exact binW_pos (hcpos e) ha2
  choose w hwpos hw using hw
  have hβ : ∀ e, ∃ β : ℝ, bce (x e) (t e) = (β : EReal) := by
    intro e
    obtain ⟨r, hr⟩ := hx e
    obtain ⟨s, hs⟩ := ht e
    rw [hr, hs]
    exact bce_real r s
  choose β hβ using hβ
  -- both quotients in the reals
  have hS : (0 : ℝ) < ∑ e, w e := Finset.sum_pos (fun e _ => hwpos e) Finset.univ_nonempty
  have hN : (33554432 : ℝ) ≠ 0 := by norm_num
  have hM : (∑ e, w e) * (1 / 33554432) ≠ 0 := (by positivity : (0 : ℝ) < (∑ e, w e) * (1 / 33554432)).ne'
  have h1 : ∑ e, (w e : EReal) = ((∑ e, w e : ℝ) : EReal) := (coe_sum _ _).symm
  have h2 : ∑ e, (w e : EReal) * (β e : EReal) = ((∑ e, w e * β e : ℝ) : EReal) := by
    rw [coe_sum]
    simp only [EReal.coe_mul]
  have h3 : Ideal.div ((∑ e, w e : ℝ) : EReal) kTot = (((∑ e, w e) * (1 / 33554432) : ℝ) : EReal) := by
    rw [kTot_eq, Ideal.div_coe hN, ← EReal.coe_mul]
  have h4 : ∀ e, Ideal.div (w e : EReal) (((∑ e, w e) * (1 / 33554432) : ℝ) : EReal) * (β e : EReal)
      = ((w e * (1 / ((∑ e, w e) * (1 / 33554432))) * β e : ℝ) : EReal) := by
    intro e
    rw [Ideal.div_coe hM, ← EReal.coe_mul, ← EReal.coe_mul]
  unfold lossK lossR
  simp only [hw, hβ]
  rw [h1, h2, h3]
  simp only [h4]
  rw [← coe_sum, kTot_eq, Ideal.div_coe hS.ne', Ideal.div_coe hN, ← EReal.coe_mul, ← EReal.coe_mul]
  congr 1
  have h5 : ∀ e, w e * (1 / ((∑ e, w e) * (1 / 33554432))) * β e = (w e * β e) * (33554432 / ∑ e, w e) := by
    intro e
    field_simp
  simp only [h5]
  rw [← Finset.sum_mul]
  field_simp

end Cert.GHM

end
-- ==== Proof.KVal0.lean ====
/-
  The first region's step read at a lane, over the extended reals. The row after a point is, at lane l < 30, what was
  there plus the number of the block's elements whose bin is l: the body adds, bin by bin, (the block's count of the
  bin) × (the indicator of the bin's lane), and at a fixed lane exactly one of the thirty indicators is 1. The
  block's count of a bin is the total sum over the block of the indicator of that bin.
-/
import proofs.«117752_j42417097016426_1_alg».proof.Proof.KPiece0
import proofs.«117752_j42417097016426_1_alg».proof.Proof.Spec
import proofs.«117752_j42417097016426_1_alg».proof.Proof.LossLaw
import Idealize.ShloMosaic.Lib.ValueIdx
import Idealize.ShloMosaic.Lib.Pipeline.Value
import Idealize.ShloMosaic.PureOps.Ideal.Laws
import Mathlib.Tactic

noncomputable section

namespace Cert.KernelIdeal.KVal0

open Cert.KernelIdeal Cert.KernelIdeal.Gen Cert.KernelIdeal.KPiece0
open Idealize.ShloMosaic Idealize.ShloMosaic.TcCoe

section Generic
variable {F : FTy → Type} [FloatOps F]

/-- The block's count of the elements whose bin is the word k, as the body computes it. -/
def cntRaw (v : IVec S2048x1024 32) (k : BitVec 32) : F .f32 :=
  extractAt ![0, 0, 0]
    (shapeCast S1x1x1
      (multiReduction .add [1, 2] S1
        (shapeCast S1x2048x1024 (sitofp .f32 (extui 32 (cmpi .eq v (broadcast S2048x1024 k)) natLt_1_32))
          shapeCasts_S2048x1024_S1x2048x1024)
        0x00000000#32 reduces_S1x2048x1024_S1 (.inl rfl) rfl)
      shapeCasts_S1_S1x1x1)
    inpos_S1x1x1_p0_0_0

/-- The indicator of the lane numbered k, along the row. -/
def laneInd (k : BitVec 32) : FVec F S1x128 .f32 :=
  sitofp .f32 (extui 32 (cmpi .eq lanes (broadcast S1x128 k)) natLt_1_32)

/-- The running row after the first n bins. -/
def chain (v : IVec S2048x1024 32) : ℕ → FVec F S1x128 .f32
  | 0 => zeroRow
  | n + 1 => addf (chain v n) (mulf (broadcast S1x128 (cntRaw v (BitVec.ofNat 32 n))) (laneInd (BitVec.ofNat 32 n)))

theorem chain_succ (v : IVec S2048x1024 32) (n : ℕ) :
    chain (F := F) v (n + 1)
      = addf (chain v n) (mulf (broadcast S1x128 (cntRaw v (BitVec.ofNat 32 n))) (laneInd (BitVec.ofNat 32 n))) := rfl

/-- The step is what was there plus the running row after all thirty bins. -/
theorem histStep_chain (x0 x1 : Vec F S2048x1024 .f32) (xo : Vec F S1x128 .f32) :
    histStep x0 x1 xo = addf (shapeCast S1x128 xo shapeCasts_S1x128_S1x128) (chain (k0_pay3 x0 x1) 30) := rfl

end Generic

section AtIdeal

theorem sizeS1 (b : Fin S1.rank) : S1.size b = 1 := by fin_cases b; rfl

/-- The block's count of bin k is the sum over the block of the indicator of k. -/
theorem cntRaw_eq (v : IVec S2048x1024 32) (k : BitVec 32) :
    cntRaw (F := Ideal) v k = ∑ y : S2048x1024.Idx, Cert.GHM.ind (v y) k := by
  unfold cntRaw extractAt shapeCast
  refine (Ideal.multiReduction_add_total _ _ reduces_S1x2048x1024_S1 sizeS1 _ _ _).trans ?_
  exact Equiv.sum_comp (Shape.reshapeEquiv shapeCasts_S2048x1024_S1x2048x1024) (fun y => Cert.GHM.ind (v y) k)

theorem laneInd_apply (k : BitVec 32) (j : S1x128.Idx) :
    laneInd (F := Ideal) k j = Cert.GHM.ind ((lanes : IVec S1x128 32) j) k := rfl

/-- Lane l of the row carries the number l. -/
theorem lanes_apply (l : Fin 128) : (lanes : IVec S1x128 32) (ValueIdx.ix2 (0 : Fin 1) l) = BitVec.ofNat 32 l.val := by
  show BitVec.ofNat 32 (0 * S1x128.size 1 + l.val) = _
  rw [Nat.zero_mul, Nat.zero_add]

/-- An element's bin, as the body computes it, is the bin of its logit and target. -/
theorem bins_apply (x0 x1 : Vec Ideal S2048x1024 .f32) (y : S2048x1024.Idx) :
    k0_pay3 x0 x1 y = Cert.GHM.binOf (x0 y) (x1 y) := by
  unfold k0_pay3
  simp only [shapeCast_self]
  rfl

/-- The running row at an index: the sum over the bins so far of count × lane indicator. -/
theorem chain_apply (v : IVec S2048x1024 32) (j : S1x128.Idx) : ∀ n : ℕ,
    chain (F := Ideal) v n j
      = ∑ b ∈ Finset.range n, cntRaw (F := Ideal) v (BitVec.ofNat 32 b) * laneInd (F := Ideal) (BitVec.ofNat 32 b) j
  | 0 => by
    rw [Finset.range_zero, Finset.sum_empty]
    exact Ideal.ofBits_zero_f32
  | n + 1 => by
    rw [Finset.sum_range_succ, ← chain_apply v j n, chain_succ, ValueIdx.addf_apply, ValueIdx.mulf_apply,
      ValueIdx.broadcast_apply]

theorem histStep_apply (x0 x1 : Vec Ideal S2048x1024 .f32) (xo : Vec Ideal S1x128 .f32) (l : Fin 30) :
    histStep x0 x1 xo (ValueIdx.ix2 (0 : Fin 1) (⟨l.val, by omega⟩ : Fin 128))
      = xo (ValueIdx.ix2 0 ⟨l.val, by omega⟩)
        + ∑ y : S2048x1024.Idx, Cert.GHM.ind (Cert.GHM.binOf (x0 y) (x1 y)) (BitVec.ofNat 32 l.val) := by
  rw [histStep_chain, shapeCast_self, ValueIdx.addf_apply, chain_apply]
  refine congrArg (fun z => xo (ValueIdx.ix2 (0 : Fin 1) (⟨l.val, by omega⟩ : Fin 128)) + z) ?_
  refine (Finset.sum_eq_single l.val (fun b hb hne => ?_)
    (fun h => absurd (Finset.mem_range.2 l.isLt) h)).trans ?_
  · have hb30 : b < 30 := Finset.mem_range.1 hb
    have hl := l.isLt
    rw [laneInd_apply, lanes_apply, Cert.GHM.ind_eq, if_neg, mul_zero]
    intro h
    have := congrArg BitVec.toNat h
    simp only [BitVec.toNat_ofNat] at this
    omega
  · rw [laneInd_apply, lanes_apply, Cert.GHM.ind_eq, if_pos rfl, mul_one, cntRaw_eq]
    simp only [bins_apply]

end AtIdeal

end Cert.KernelIdeal.KVal0

end
-- ==== Proof.KHist.lean ====
/-
  The histogram the first region leaves. After the last of the sixteen points the row holds, at lane l < 30, the sum
  over the points of the number of the point's block's elements whose bin is l: the first point stores the zero row
  and adds its block's counts, every later point adds its block's counts to what the point before left.
-/
import proofs.«117752_j42417097016426_1_alg».proof.Proof.KVal0
import proofs.«117752_j42417097016426_1_alg».proof.Proof.KFinal
import proofs.«117752_j42417097016426_1_alg».proof.Proof.LibBlockSum

noncomputable section

namespace Cert.KernelIdeal.KHist

open Cert.KernelIdeal Cert.KernelIdeal.Gen Cert.KernelIdeal.KPiece0 Cert.KernelIdeal.KVal0
open Idealize.ShloMosaic Idealize.ShloMosaic.TcCoe Idealize.SL.Sem

variable (V : (c : Dev nD) → (b : Ref sig .tc) → Buf (Elt Ideal) ((c : Thread nD τ).loc b))

/-- Lane l of the row. -/
abbrev lane (l : Fin 30) : S1x128.Idx := ValueIdx.ix2 (0 : Fin 1) (⟨l.val, by omega⟩ : Fin 128)

/-- The number of the elements of point t's block whose bin is l. -/
def blkCnt (c : Dev nD) (l : Fin 30) (t : Fin cfg0.N) : EReal :=
  ∑ y : S2048x1024.Idx, Cert.GHM.ind (Cert.GHM.binOf ((iblk0 V c 0 t : Vec Ideal S2048x1024 .f32) y)
    ((iblk0 V c 1 t : Vec Ideal S2048x1024 .f32) y)) (BitVec.ofNat 32 l.val)

theorem N16 : cfg0.N = 16 := N_0

/-- The row after a point depends on the point's number only. -/
theorem outsAt0_congr (c : Dev nD) (n m : ℕ) (hn : n < cfg0.N) (hm : m < cfg0.N) (e : n = m) :
    outsAt0 V c n hn = outsAt0 V c m hm := by
  subst e
  rfl

/-- The zero row holds 0 at every lane. -/
theorem zeroRow_apply (j : S1x128.Idx) : (zeroRow : Vec Ideal S1x128 .f32) j = 0 := Ideal.ofBits_zero_f32

/-- The first point: the zero row plus the first block's counts. -/
theorem outsAt_zero (c : Dev nD) (l : Fin 30) (h : 0 < cfg0.N) :
    outsAt0 V c 0 h (lane l) = 0 + blkCnt V c l ⟨0, h⟩ := by
  rw [outsAt0_A V c ⟨0, h⟩ rfl,
    out_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_0 ⟨0, h⟩).mpr rfl) (iblk0 V c 0 ⟨0, h⟩) (iblk0 V c 1 ⟨0, h⟩)]
  rw [histStep_apply, zeroRow_apply]
  unfold blkCnt
  rfl

/-- A later point: what the point before left plus the block's counts. -/
theorem outsAt_succ (c : Dev nD) (l : Fin 30) (n : ℕ) (h : n + 1 < cfg0.N) :
    outsAt0 V c (n + 1) h (lane l) = outsAt0 V c n (Nat.lt_of_succ_lt h) (lane l) + blkCnt V c l ⟨n + 1, h⟩ := by
  have hN : cfg0.N = 16 := N16
  have hB : ¬(⟨n + 1, h⟩ : Fin cfg0.N).val % 16 = 0 := by dsimp only; omega
  rw [outsAt0_B V c ⟨n + 1, h⟩ hB,
    out_B_2 c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hB ((hcond0_0 ⟨n + 1, h⟩).mp hh)) (iblk0 V c 0 ⟨n + 1, h⟩)
      (iblk0 V c 1 ⟨n + 1, h⟩) (outsAt0 V c ((⟨n + 1, h⟩ : Fin cfg0.N).val - 1) (Nat.lt_of_le_of_lt (Nat.sub_le _ _) h))]
  rw [histStep_apply, outsAt0_congr V c ((⟨n + 1, h⟩ : Fin cfg0.N).val - 1) n _ (Nat.lt_of_succ_lt h) (Nat.add_sub_cancel n 1)]
  unfold blkCnt
  rfl

theorem hist_apply (c : Dev nD) (l : Fin 30) :
    KFinal.hist V c (lane l) = ∑ t : Fin cfg0.N, blkCnt V c l t := by
  have hT : 0 < cfg0.N := by rw [N16]; decide
  have key := Cert.Lib.BatchNorm.running_total_fin_last hT (fun t : Fin cfg0.N => outsAt0 V c t.val t.isLt (lane l))
    (fun t => blkCnt V c l t) 0 (outsAt_zero V c l hT) (fun n h => outsAt_succ V c l n h)
  simp only [zero_add] at key
  refine Eq.trans ?_ key
  exact congrFun (outsAt0_congr V c 15 (cfg0.N - 1) _ _ (by rw [N16])) (lane l)

/-- The same, with the block counts written out. -/
theorem hist_apply_sum (c : Dev nD) (l : Fin 30) :
    KFinal.hist V c (ValueIdx.ix2 (0 : Fin 1) (⟨l.val, by omega⟩ : Fin 128))
      = ∑ t : Fin cfg0.N, ∑ y : S2048x1024.Idx,
          Cert.GHM.ind (Cert.GHM.binOf ((iblk0 V c 0 t : Vec Ideal S2048x1024 .f32) y)
            ((iblk0 V c 1 t : Vec Ideal S2048x1024 .f32) y)) (BitVec.ofNat 32 l.val) := by
  have h := hist_apply V c l
  unfold blkCnt at h
  exact h

end Cert.KernelIdeal.KHist

end
-- ==== Proof.KCount.lean ====
/-
  The histogram the first region leaves counts the bins: lane b < 30 of it is the number of elements of bin b. Every
  block entry the region reads is an element of the arguments, and the sixteen blocks list every element once.
-/
import proofs.«117752_j42417097016426_1_alg».proof.Proof.KValue
import proofs.«117752_j42417097016426_1_alg».proof.Proof.KHist

noncomputable section

namespace Cert.KernelIdeal.KCount

open Cert.KernelIdeal Cert.KernelIdeal.Gen Cert.KernelIdeal.KBlocks Cert.KernelIdeal.KValue
open Idealize.ShloMosaic Idealize.ShloMosaic.TcCoe Idealize.ShloMosaic.ValueIdx Idealize.SL.Sem

variable (m : (ℓ : Loc nD τ sig) → Buf (Elt Ideal) ℓ) (ρ : Dev nD → PrngReg)

theorem hcnt (c : Dev nD) (b : Fin 30) :
    (KFinal.hist (V1 m ρ) c : S1x128.Idx → EReal) (ix2 (0 : Fin 1) (⟨b.val, by omega⟩ : Fin 128))
      = Cert.GHM.cnt (xs m c) (ts m c) b := by
  have key : (∑ t : Fin cfg0.N, ∑ y : S2048x1024.Idx,
      Cert.GHM.ind (Cert.GHM.binOf ((iblk0 (V1 m ρ) c 0 t : Vec Ideal S2048x1024 .f32) y) ((iblk0 (V1 m ρ) c 1 t : Vec Ideal S2048x1024 .f32) y))
        (BitVec.ofNat 32 b.val) : EReal) = Cert.GHM.cnt (xs m c) (ts m c) b := by
    unfold Cert.GHM.cnt
    rw [← KSum.sum_elems N_0 shapeCasts_S32x1024x1024_S32768x1024
      (fun e => Cert.GHM.ind (Cert.GHM.binOf (xs m c e) (ts m c e)) (BitVec.ofNat 32 b.val))]
    refine Finset.sum_congr rfl fun t _ => Finset.sum_congr rfl fun y _ => ?_
    rw [bx0, bt0]
    rfl
  exact (KHist.hist_apply_sum (V1 m ρ) c b).trans key

end Cert.KernelIdeal.KCount

end
-- ==== Proof.RefElem.lean ====
/-
  The reference's elementwise stages, read at one element.

  At element i the clipped bin index is the bin of (x i, t i): the program writes the sigmoid as 1 / (1 + e^{-x}),
  which is the logistic function by definition once the printed word 0x3F800000 is read as 1; the absolute value is
  max y (-y); the clip is min 29 (max 0 ·) on signed 32-bit integers. The cross-entropy stage at i is
  max(x,0) - x·t + log(1 + e^{-|x|}). A clipped integer lies in 0 … 29, so the index normalisation
  "add 30 if negative" leaves it unchanged.
-/
import proofs.«117752_j42417097016426_1_alg».proof.Proof.RefReadP
import proofs.«117752_j42417097016426_1_alg».proof.Proof.Spec
import Idealize.ShloMosaic.Lib.ValueIdx

noncomputable section

open scoped BigOperators

namespace Cert.GHM.Ref

open Cert.ReferenceIdeal Cert.ReferenceIdeal.Gen Idealize.ShloMosaic Idealize.ShloMosaic.ValueIdx Cert.ReferenceIdeal.ReadP

/-- The word 0x3F800000 is the real 1. -/
theorem ofBits_one_f32 : Ideal.ofBits .f32 0x3F800000#32 = 1 := by
  simp [Ideal.ofBits, Ideal.ieee]
  first
    | (norm_num; done)
    | (rw [← EReal.coe_mul, ← EReal.coe_one]; congr 1; norm_num; done)
    | (norm_cast; norm_num)

/-- The clipped bin index at element i is the bin of (x i, t i). -/
theorem bin_elem (x t : (⟨S32x1024x1024, .f32⟩ : BufTy).Contents (Elt Ideal)) (i : S32x1024x1024.Idx) :
    val_main_v12 (F := Ideal) x t i = Cert.GHM.binOf (x i) (t i) := by
  rw [val_main_v12_apply, val_main_call0_v4_apply, val_main_call0_v3_apply, val_main_c_2_apply,
    val_main_call0_v2_apply, val_main_call0_v1_apply, val_main_call0_v0_apply, val_main_c_apply,
    val_main_v11_apply, val_main_v10_apply, val_main_v9_apply, val_main_v8_apply, val_main_cst_1_apply,
    val_main_v7_apply, val_main_v6_apply, val_main_v5_apply, val_main_v4_apply, val_main_cst_0_apply,
    val_main_v3_apply, val_main_v2_apply, val_main_cst_apply, val_main_v1_apply, val_main_v0_apply]
  unfold Cert.GHM.binOf Cert.GHM.gmag Ideal.logistic
  rw [← ofBits_one_f32]
  rfl

/-- The cross-entropy stage at element i is the cross-entropy term of (x i, t i). -/
theorem bce_elem (x t : (⟨S32x1024x1024, .f32⟩ : BufTy).Contents (Elt Ideal)) (i : S32x1024x1024.Idx) :
    val_main_v54 (F := Ideal) x t i = Cert.GHM.bce (x i) (t i) := by
  rw [val_main_v54_apply, val_main_v53_apply, val_main_v52_apply, val_main_v51_apply, val_main_v50_apply,
    val_main_v49_apply, val_main_v48_apply, val_main_v47_apply, val_main_v46_apply, val_main_cst_17_apply]
  rfl

/-- A signed 32-bit integer clipped to 0 … 29 is, read signed, between 0 and 29. -/
theorem clip_range (v : BitVec 32) :
    0 ≤ (IntOp.minsi 29#32 (IntOp.maxsi 0#32 v)).toInt ∧ (IntOp.minsi 29#32 (IntOp.maxsi 0#32 v)).toInt ≤ 29 := by
  have h0 : (0#32 : BitVec 32).toInt = 0 := by decide
  have h29 : (29#32 : BitVec 32).toInt = 29 := by decide
  unfold IntOp.minsi IntOp.maxsi
  simp only [BitVec.slt, decide_eq_true_eq, h0, h29]
  split_ifs <;> omega

/-- The bin of an element, read signed, is between 0 and 29. -/
theorem binOf_range (x t : EReal) : 0 ≤ (Cert.GHM.binOf x t).toInt ∧ (Cert.GHM.binOf x t).toInt ≤ 29 :=
  clip_range _

/-- "Add 30 if negative" leaves a non-negative signed integer unchanged. -/
theorem normalise_nonneg (v : BitVec 32) (h : 0 ≤ v.toInt) :
    Scalar.select (IntOp.cmpi .slt v 0#32) (IntOp.addi v 30#32) v = v := by
  have h0 : (0#32 : BitVec 32).toInt = 0 := by decide
  have hc : IntOp.cmpi .slt v 0#32 = 0#1 := by
    show BitVec.ofBool (v.slt 0#32) = 0#1
    have : v.slt 0#32 = false := by
      simp only [BitVec.slt, h0, decide_eq_false_iff_not]; omega
    rw [this]; rfl
  rw [hc]
  exact select_zero _ _

/-- A signed integer between 0 and 29 equals the word of a number b below 30 exactly when its signed value is b. -/
theorem toInt_eq_iff (v : BitVec 32) (b : Fin 30) : v.toInt = (b.val : Int) ↔ v = BitVec.ofNat 32 b.val := by
  have hb : (BitVec.ofNat 32 b.val).toInt = (b.val : Int) := by
    have := b.isLt
    rw [BitVec.toInt_eq_toNat_cond, BitVec.toNat_ofNat]
    have h1 : b.val % 2 ^ 32 = b.val := Nat.mod_eq_of_lt (by omega)
    rw [h1]
    split_ifs <;> omega
  constructor
  · intro h
    exact BitVec.eq_of_toInt_eq (h.trans hb.symm)
  · intro h
    rw [h, hb]

/-- The indicator of v = b is 1 when the words agree and 0 otherwise. -/
theorem ind_eq (v b : BitVec 32) : Cert.GHM.ind v b = if v = b then 1 else 0 := by
  unfold Cert.GHM.ind
  by_cases h : v = b
  · rw [if_pos h]
    have : IntOp.cmpi .eq v b = 1#1 := by
      show BitVec.ofBool (v == b) = 1#1
      rw [beq_iff_eq.mpr h]; rfl
    rw [this]
    have : (BitVec.setWidth 32 1#1).toInt = 1 := by decide
    rw [this]; simp
  · rw [if_neg h]
    have : IntOp.cmpi .eq v b = 0#1 := by
      show BitVec.ofBool (v == b) = 0#1
      have : (v == b) = false := by simpa using h
      rw [this]; rfl
    rw [this]
    have : (BitVec.setWidth 32 0#1).toInt = 0 := by decide
    rw [this]; simp

end Cert.GHM.Ref

end
-- ==== Proof.LibGatherScatter.lean ====
/-
  Gathers of rows and of entries by an array of start indices, the scatter-add that accumulates rows or entries at
  such indices, and two facts about sums of extended reals.

  A row gather of a matrix x : [N, C] at start indices idx : [R, 1] has result row e equal to the row of x whose number
  is idx[e, 0] read as a signed integer and clamped into [0, N − 1]; a vector gather reads one entry the same way.
  A scatter of updates : [R, C] into an operand [N, C] at the same kind of indices sends update element (e, f) to operand
  element (n, g) exactly when idx[e, 0], read signed and NOT clamped, is n, and f = g; a start index outside [0, N − 1]
  sends its update nowhere.  Multiplication by a non-negative real distributes over a finite sum of extended reals, and
  a sum of ones over a finite set is the number of its elements.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherScatter

open Idealize.ShloMosaic Idealize.ShloMosaic.ValueIdx

/-! ## Row gather: x[idx] of a matrix -/

section Gather
variable {α : Type}

/-- The dimension numbers of a row gather: operand [N, C], start indices [R, 1] (the index vector on axis 1, of length
    one, naming operand axis 0), result [R, C]; operand axis 0 is collapsed (slice size 1), operand axis 1 is the result's
    offset axis 1 (slice size C). -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at (e, f): entry f of the operand's row idx[e, 0], the start index read signed and clamped into
    [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsDims N R C wf).start (ix2 e f) idx 0 + (rowsDims N R C wf).batchCoord (ix2 e f) 0
      + (rowsDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e f) idx 1 + (rowsDims N R C wf).batchCoord (ix2 e f) 1
      + (rowsDims N R C wf).offCoord (ix2 e f) 1 = _
    rw [GatherDims.batchCoord_eq_zero _ _ _ List.not_mem_nil]
    have hst : (rowsDims N R C wf).start (ix2 e f) idx 1 = 0 := by
      unfold GatherDims.start
      rw [dif_neg (show (1 : Fin 2) ∉ (rowsDims N R C wf).startIndexMap from
        (by decide : (1 : Fin 2) ∉ ([0] : List (Fin 2))))]
    rw [hst]
    simp only [Nat.add_zero, Nat.zero_add]
    rfl

/-! ## Vector gather: x[idx] of a flat array at a column of start indices -/

/-- The dimension numbers of a vector gather: operand [N], start indices [R, 1] (the index vector on axis 1, of length
    one), result [R]; the operand's one axis is collapsed. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather read at e: the operand's entry idx[e, 0], the start index read signed and clamped into
    [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where a scatter's update lands -/

section Scatter

/-- An update element lands at operand element i exactly when, on every operand axis, the window's start (read signed,
    not clamped) plus the window coordinate is i's coordinate; a sum outside the operand's extent is no coordinate, so the
    update is then dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      simp only at h1
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    have h1 := h a
    simp only
    omega

/-- The dimension numbers of a row scatter: operand [N, C], scatter indices [R, 1] (the index vector on axis 1, of length
    one, naming operand axis 0), updates [R, C]; the updates' axis 1 is the window axis and goes to operand axis 1, operand
    axis 0 is an inserted window axis. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, f) of a row scatter lands at operand element (n, g) exactly when the scatter index idx[e, 0], read
    signed, is n, and the columns agree. -/
theorem rows_resultIdx?_eq_some_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (g : Fin C) :
    (rowsScatter N R C wf).resultIdx? (ix2 e f) idx = some (ix2 n g)
      ↔ (idx (ix2 e (0 : Fin 1))).toInt = (n.val : Int) ∧ f = g := by
  have hs0 : (rowsScatter N R C wf).start (ix2 e f) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e f)
        ⟨List.idxOf (0 : Fin 2) (rowsScatter N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e f) idx 1 = 0 := by
    unfold ScatterDims.start
    rw [dif_neg (show (1 : Fin 2) ∉ (rowsScatter N R C wf).scatterDimsToOperandDims from
      (by decide : (1 : Fin 2) ∉ ([0] : List (Fin 2))))]
  have hw0 : (rowsScatter N R C wf).window (ix2 e f) 0 = 0 := by
    unfold ScatterDims.window
    rw [dif_neg (show (0 : Fin 2) ∉ (rowsScatter N R C wf).sKept from
      (by decide : (0 : Fin 2) ∉ (List.finRange 2).filter (· ∉ ([0] : List (Fin 2)))))]
  have hw1 : (rowsScatter N R C wf).window (ix2 e f) 1 = f.val := by
    unfold ScatterDims.window
    rw [dif_pos (show (1 : Fin 2) ∈ (rowsScatter N R C wf).sKept from
      (by decide : (1 : Fin 2) ∈ (List.finRange 2).filter (· ∉ ([0] : List (Fin 2)))))]
    rfl
  rw [resultIdx?_eq_some_iff, Fin.forall_fin_two, hs0, hs1, hw0, hw1]
  show (idx (ix2 e (0 : Fin 1))).toInt + ((0 : Nat) : Int) = (n.val : Int) ∧ (0 : Int) + (f.val : Int) = (g.val : Int) ↔ _
  constructor
  · rintro ⟨h0, h1⟩
    exact ⟨by omega, Fin.ext (by omega)⟩
  · rintro ⟨h0, rfl⟩
    exact ⟨by omega, by omega⟩

/-- The dimension numbers of a vector scatter: operand [N], scatter indices [R, 1] (the index vector on axis 1, of length
    one), updates [R]; no window axis, the operand's one axis is an inserted window axis. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update element e of a vector scatter lands at operand element n exactly when the scatter index idx[e, 0], read signed,
    is n. -/
theorem vec_resultIdx?_eq_some_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (vecScatter N R wf).resultIdx? (ix1 e) idx = some (ix1 n)
      ↔ (idx (ix2 e (0 : Fin 1))).toInt = (n.val : Int) := by
  have hs0 : (vecScatter N R wf).start (ix1 e) idx 0 = (idx (ix2 e (0 : Fin 1))).toInt := by
    unfold ScatterDims.start
    rw [dif_pos (show (0 : Fin 1) ∈ (vecScatter N R wf).scatterDimsToOperandDims from List.mem_singleton.mpr rfl)]
    have hsi : (vecScatter N R wf).siIdx (ix1 e)
        ⟨List.idxOf (0 : Fin 1) (vecScatter N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N R wf).window (ix1 e) 0 = 0 := by
    unfold ScatterDims.window
    rw [dif_neg (show (0 : Fin 1) ∉ (vecScatter N R wf).sKept from
      (by decide : (0 : Fin 1) ∉ (List.finRange 1).filter (· ∉ ([0] : List (Fin 1)))))]
  rw [resultIdx?_eq_some_iff, Fin.forall_fin_one, hs0, hw0]
  show (idx (ix2 e (0 : Fin 1))).toInt + ((0 : Nat) : Int) = (n.val : Int) ↔ _
  constructor
  · intro h; omega
  · intro h; omega

end Scatter

/-! ## Sums of extended reals -/

section Sums

/-- Multiplication by a non-negative real distributes over a finite sum of extended reals (it does not for a general
    extended real factor: ⊤ + ⊥ = ⊥ while a negative factor turns it round, and 0 · ⊤ = 0). -/
theorem sum_mul_coe_of_nonneg {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- The same with the sum started at zero, the form a scatter-add into a zero array takes. -/
theorem zero_add_sum_mul_coe_of_nonneg {ι : Type*} (s : Finset ι) (a : ι → EReal) {r : ℝ} (hr : 0 ≤ r) :
    ((0 : EReal) + ∑ j ∈ s, a j) * (r : EReal) = (0 : EReal) + ∑ j ∈ s, a j * (r : EReal) := by
  rw [zero_add, zero_add, sum_mul_coe_of_nonneg s a hr]

end Sums

end Cert.Lib.GatherScatter

end
-- ==== Proof.LibScatterSum.lean ====
/-
  The accumulating scatter read at one element as a sum over the updates that land there, and the degree count.

  A scatter-add of updates : [R, C] into an operand [N, C] at scatter indices idx : [R, 1] leaves at element (n, g) the
  operand's element plus the sum, over the edges e whose index idx[e, 0] (read signed) is n, of update element (e, g):
  an update row goes to one operand row, column by column, and an index outside [0, N − 1] goes nowhere.  The vector
  form is the same without the column.  Scattering ones into zeros therefore counts, at n, the edges whose index is n:
  a natural number, whose reciprocal square root is a non-negative real as soon as the count is positive.
-/
import proofs.«117752_j42417097016426_1_alg».proof.Proof.LibGatherScatter

noncomputable section

open scoped BigOperators

namespace Cert.Lib.GatherScatter

open Idealize.ShloMosaic Idealize.ShloMosaic.ValueIdx

/-! ## A sum over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter-add at an element: a sum over the edges that land there -/

/-- Row scatter-add at (n, g): the operand's element plus the sum of update elements (e, g) over the edges e whose
    scatter index, read signed, is n. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (g : Fin C) :
    Ideal.hostScatterAdd (rowsScatter N R C wf) x idx upd (ix2 n g)
      = x (ix2 n g) + ∑ e ∈ Finset.univ.filter
          (fun e : Fin R => (idx (ix2 e (0 : Fin 1))).toInt = (n.val : Int)), upd (ix2 e g) := by
  unfold Ideal.hostScatterAdd
  congr 1
  rw [Finset.sum_filter, sum_idx2, Finset.sum_filter]
  refine Finset.sum_congr rfl fun a _ => ?_
  by_cases h : (idx (ix2 a (0 : Fin 1))).toInt = (n.val : Int)
  · rw [if_pos h, Finset.sum_eq_single g]
    · rw [if_pos ((rows_resultIdx?_eq_some_iff wf idx a g n g).mpr ⟨h, rfl⟩)]
    · intro b _ hb
      rw [if_neg (fun hh => hb ((rows_resultIdx?_eq_some_iff wf idx a b n g).mp hh).2)]
    · intro hg
      exact absurd (Finset.mem_univ g) hg
  · rw [if_neg h]
    refine Finset.sum_eq_zero fun b _ => ?_
    rw [if_neg (fun hh => h ((rows_resultIdx?_eq_some_iff wf idx a b n g).mp hh).1)]

/-- Vector scatter-add at n: the operand's element plus the sum of the update elements e over the edges e whose scatter
    index, read signed, is n. -/
theorem scatterAdd_vec_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatter N R wf) x idx upd (ix1 n)
      = x (ix1 n) + ∑ e ∈ Finset.univ.filter
          (fun e : Fin R => (idx (ix2 e (0 : Fin 1))).toInt = (n.val : Int)), upd (ix1 e) := by
  unfold Ideal.hostScatterAdd
  congr 1
  rw [Finset.sum_filter, sum_idx1, Finset.sum_filter]
  refine Finset.sum_congr rfl fun a _ => ?_
  exact if_congr (vec_resultIdx?_eq_some_iff wf idx a n) rfl rfl

/-! ## The degree count and its reciprocal square root -/

/-- A sum of ones over a finite set, started at zero, is the number of the set's elements. -/
theorem zero_add_sum_one_eq_card {ι : Type*} (S : Finset ι) :
    (0 : EReal) + ∑ _j ∈ S, (1 : EReal) = ((S.card : ℝ) : EReal) := by
  classical
  rw [zero_add]
  induction S using Finset.induction_on with
  | empty => simp
  | insert k s hk ih =>
    rw [Finset.sum_insert hk, ih, Finset.card_insert_of_notMem hk, Nat.cast_add_one, EReal.coe_add, EReal.coe_one,
      add_comm]

/-- The reciprocal square root of a positive natural number k is the real 1 / √k. -/
theorem rsqrt_natCast_of_pos {k : ℕ} (hk : 1 ≤ k) :
    Ideal.rsqrt (((k : ℝ)) : EReal) = (((Real.sqrt (k : ℝ))⁻¹ : ℝ) : EReal) := by
  have hk' : (0 : ℝ) < (k : ℝ) := by exact_mod_cast hk
  rw [Ideal.rsqrt_coe, if_neg (not_lt.mpr hk'.le), if_neg hk'.ne']

/-- At zero it is +∞ (so a normaliser guarded by "degree > 0" never meets this value). -/
theorem rsqrt_natCast_zero : Ideal.rsqrt ((((0 : ℕ) : ℝ)) : EReal) = ⊤ := by
  rw [Ideal.rsqrt_coe, if_neg (by simp), if_pos (by simp)]

/-- The reciprocal square root of a positive natural number is a non-negative real. -/
theorem exists_rsqrt_natCast {k : ℕ} (hk : 1 ≤ k) :
    ∃ r : ℝ, 0 ≤ r ∧ Ideal.rsqrt (((k : ℝ)) : EReal) = (r : EReal) :=
  ⟨(Real.sqrt (k : ℝ))⁻¹, inv_nonneg.mpr (Real.sqrt_nonneg _), rsqrt_natCast_of_pos hk⟩

end Cert.Lib.GatherScatter

end
-- ==== Proof.RefBins.lean ====
/-
  The reference's histogram: the scatter-add of ones, read at one bin.

  The clipped bin indices are laid out row-major as a flat array of 2^25 entries, normalised ("add 30 if negative",
  the identity on 0 … 29) and used as scatter indices for an array of ones into thirty zeros. The result at bin b is
  0 plus the number of flat positions whose index, read signed, is b. The row-major re-indexing is a bijection
  between the flat positions and the elements, so this is the number of elements whose bin is b: the count cnt b,
  written as the sum over the elements of the indicator of "bin = b".
-/
import proofs.«117752_j42417097016426_1_alg».proof.Proof.RefElem
import proofs.«117752_j42417097016426_1_alg».proof.Proof.LibScatterSum
import Idealize.ShloMosaic.Lib.ValueIdx

noncomputable section

open scoped BigOperators

namespace Cert.GHM.Ref

open Cert.ReferenceIdeal Cert.ReferenceIdeal.Gen Idealize.ShloMosaic Idealize.ShloMosaic.ValueIdx Cert.ReferenceIdeal.ReadP

open Cert.Lib.GatherScatter

/-- The element a flat position names: the row-major re-indexing of [2^25] as [32, 1024, 1024]. -/
abbrev unflat (e : Fin 33554432) : S32x1024x1024.Idx :=
  Shape.reshapeEquiv shapeCasts_S32x1024x1024_S33554432 (ix1 e)

/-- The scatter index at flat position e is the bin of the element e names. -/
theorem idx_elem (x t : (⟨S32x1024x1024, .f32⟩ : BufTy).Contents (Elt Ideal)) (e : Fin 33554432) :
    val_main_v20 (F := Ideal) x t (ix2 e (0 : Fin 1)) = Cert.GHM.binOf (x (unflat e)) (t (unflat e)) := by
  have h14 : val_main_v14 (F := Ideal) x t (ix1 e) = Cert.GHM.binOf (x (unflat e)) (t (unflat e)) := by
    unfold val_main_v14 shapeCast
    exact bin_elem x t _
  have hix : idx_main_v20 (ix2 e (0 : Fin 1)) = ix1 e := by
    funext d; match d with | ⟨0, _⟩ => rfl
  rw [val_main_v20_apply, hix, val_main_v19_apply, val_main_v16_apply, val_main_v18_apply, val_main_v15_apply,
    val_main_c_4_apply, val_main_v17_apply, val_main_c_5_apply, h14]
  exact normalise_nonneg _ (binOf_range _ _).1

/-- The scatter-add of a vector at operand entry n: that entry plus the sum of the updates whose index, read signed,
    is n. -/
theorem scatterAdd_ideal_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Host.scatterAdd (F := Ideal) (φ := .f32) (vecScatter N R wf) x idx upd (ix1 n)
      = x (ix1 n) + ∑ e ∈ Finset.univ.filter
          (fun e : Fin R => (idx (ix2 e (0 : Fin 1))).toInt = (n.val : Int)), upd (ix1 e) :=
  scatterAdd_vec_apply wf x idx upd n

/-- A sum over the elements is the sum over the flat positions of the element each names: the row-major
    re-indexing is a bijection. -/
theorem sum_unflat (G : S32x1024x1024.Idx → EReal) : ∑ i, G i = ∑ e : Fin 33554432, G (unflat e) := by
  rw [← Equiv.sum_comp (Shape.reshapeEquiv shapeCasts_S32x1024x1024_S33554432) G]
  exact sum_idx1 _

/-- The histogram at bin b is the count of the elements of bin b. -/
theorem counts_elem (x t : (⟨S32x1024x1024, .f32⟩ : BufTy).Contents (Elt Ideal)) (b : Fin 30) :
    val_main_v22 (F := Ideal) x t (ix1 b) = Cert.GHM.cnt (ι := S32x1024x1024.Idx) x t b := by
  refine (scatterAdd_ideal_apply (N := 30) (R := 33554432) scatter_S30_S33554432x1_S33554432_n_0_0_1.wf _ _ _ b).trans ?_
  rw [val_main_v13_apply, val_main_cst_3_apply, Ideal.ofBits_def, Ideal.ofBits_zero_f32, zero_add, Finset.sum_filter]
  unfold Cert.GHM.cnt
  rw [sum_unflat]
  refine Finset.sum_congr rfl fun e _ => ?_
  rw [idx_elem, ind_eq, val_main_v21_apply, val_main_cst_6_apply, Ideal.ofBits_def, ofBits_one_f32]
  exact if_congr (toInt_eq_iff _ b) rfl rfl

end Cert.GHM.Ref

end
-- ==== Proof.RefGather.lean ====
/-
  A gather of single entries of a vector at a rank-4 array of start indices.

  What w[idx] of a vector w : [N] at an integer array idx : [A, B, C] lowers to: the start indices carry a trailing
  axis of length one (the index vector), the operand's one axis is collapsed, and result element (a, b, c) is the
  operand's entry at the start index idx[a, b, c, 0], read as a signed integer and clamped into [0, N − 1].
-/
import Idealize.ShloMosaic.PureOps.Ideal
import Idealize.ShloMosaic.Lib.ValueIdx

noncomputable section

namespace Cert.GHM.Ref

open Idealize.ShloMosaic Idealize.ShloMosaic.ValueIdx

section Gather
variable {α : Type}

/-- The dimension numbers: operand [N], start indices [A, B, C, 1] with the index vector on axis 3, result [A, B, C];
    the operand's one axis is collapsed. -/
abbrev vec3Dims (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- The gather read at (a, b, c): the operand's entry at the start index idx[a, b, c, 0], read signed and clamped into
    [0, N − 1]. -/
theorem gather_vec3_apply {N A B C w : Nat} (hN : 0 < N)
    (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ w) (a : Fin A) (b : Fin B) (c : Fin C) :
    Host.gather (vec3Dims N A B C wf) x idx (ix3 a b c)
      = x (ix1 ⟨min (idx (ix4 a b c (0 : Fin 1))).toInt.toNat (N - 1), by omega⟩) := by
  unfold Host.gather
  congr 1
  funext k
  obtain rfl : k = 0 := Subsingleton.elim _ _
  refine Fin.ext ?_
  show (vec3Dims N A B C wf).start (ix3 a b c) idx 0 + (vec3Dims N A B C wf).batchCoord (ix3 a b c) 0
    + (vec3Dims N A B C wf).offCoord (ix3 a b c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vec3Dims N A B C wf).startIndexMap from List.mem_singleton.mpr rfl)]
  have hsi : (vec3Dims N A B C wf).siIdx (ix3 a b c) ⟨List.idxOf (0 : Fin 1) (vec3Dims N A B C wf).startIndexMap,
      List.idxOf_lt_length_iff.2 (List.mem_singleton.mpr rfl)⟩ = ix4 a b c (0 : Fin 1) := by
    funext d; refine Fin.ext ?_
    match d with
    | ⟨0, _⟩ => rfl
    | ⟨1, _⟩ => rfl
    | ⟨2, _⟩ => rfl
    | ⟨3, _⟩ => rfl
  rw [hsi]
  rfl

end Gather

end Cert.GHM.Ref

end
-- ==== Proof.RefWeights.lean ====
/-
  The reference's bin weights and per-element weights.

  From the histogram the program computes, per bin, the comparison "count > 0", the accumulator ½·acc + ½·count where
  the bin is non-empty, a safe divisor (1 where empty) and the weight N / divisor (0 where empty): the weight of the
  bin as a function of its count and its accumulator. The per-element weight is a gather of that vector at the
  element's bin; since a bin lies in 0 … 29 the gather's clamp does nothing and the gathered entry is the sum over the
  thirty bins of indicator × bin weight, in which one term survives.
-/
import proofs.«117752_j42417097016426_1_alg».proof.Proof.RefBins
import proofs.«117752_j42417097016426_1_alg».proof.Proof.RefGather
import Idealize.ShloMosaic.Lib.ValueIdx

noncomputable section

open scoped BigOperators

namespace Cert.GHM.Ref

open Cert.ReferenceIdeal Cert.ReferenceIdeal.Gen Idealize.ShloMosaic Idealize.ShloMosaic.ValueIdx Cert.ReferenceIdeal.ReadP

/-- The weight stage at bin b, given the histogram's value c there, is the weight of a bin of count c. -/
theorem binw_of_counts (x t : (⟨S32x1024x1024, .f32⟩ : BufTy).Contents (Elt Ideal))
    (a : (⟨S30, .f32⟩ : BufTy).Contents (Elt Ideal)) (b : Fin 30) (c : EReal)
    (hc : val_main_v22 (F := Ideal) x t (ix1 b) = c) :
    val_main_v34 (F := Ideal) x t a (ix1 b) = Cert.GHM.binW c (a (ix1 b)) := by
  rw [val_main_v34_apply, val_main_v33_apply, val_main_v31_apply, val_main_v30_apply, val_main_v29_apply,
    val_main_v28_apply, val_main_v26_apply, val_main_v24_apply, val_main_v23_apply, val_main_cst_7_apply,
    val_main_v25_apply, val_main_cst_8_apply, val_main_v27_apply, val_main_cst_9_apply, val_main_v32_apply,
    val_main_cst_11_apply, val_main_call2_v1_apply, val_main_call2_v0_apply, val_main_cst_10_apply,
    val_main_call3_v1_apply, val_main_call3_v0_apply, val_main_cst_12_apply, hc]
  rfl

/-- The weight stage at bin b is the weight of bin b. -/
theorem binw_elem (x t : (⟨S32x1024x1024, .f32⟩ : BufTy).Contents (Elt Ideal))
    (a : (⟨S30, .f32⟩ : BufTy).Contents (Elt Ideal)) (b : Fin 30) :
    val_main_v34 (F := Ideal) x t a (ix1 b)
      = Cert.GHM.wBin (ι := S32x1024x1024.Idx) x t (fun b : Fin 30 => a (ix1 b)) b :=
  binw_of_counts x t a b _ (counts_elem x t b)

/-- For a signed integer v between 0 and 29, the sum over the thirty bins of (indicator of v = b) × f b is f at v. -/
theorem sum_ind_mul (v : BitVec 32) (h0 : 0 ≤ v.toInt) (h1 : v.toInt ≤ 29) (f : Fin 30 → EReal)
    (hk : min v.toInt.toNat (30 - 1) < 30) :
    ∑ b : Fin 30, Cert.GHM.ind v (BitVec.ofNat 32 b.val) * f b = f ⟨min v.toInt.toNat (30 - 1), hk⟩ := by
  rw [Finset.sum_eq_single (⟨min v.toInt.toNat (30 - 1), hk⟩ : Fin 30)]
  · rw [ind_eq, if_pos ((toInt_eq_iff v _).mp (by show v.toInt = ((min v.toInt.toNat (30 - 1) : Nat) : Int); omega)),
      one_mul]
  · intro b _ hb
    rw [ind_eq, if_neg (fun h => hb (Fin.ext (by
      have := (toInt_eq_iff v b).mpr h
      show b.val = min v.toInt.toNat (30 - 1)
      omega))), zero_mul]
  · intro h
    exact absurd (Finset.mem_univ _) h

/-- The same read from right to left, for a word v known to equal a word w between 0 and 29. -/
theorem pick_bin (f : Fin 30 → EReal) (v w : BitVec 32) (hvw : v = w) (h0 : 0 ≤ w.toInt) (h1 : w.toInt ≤ 29)
    (hk : min v.toInt.toNat (30 - 1) < 30) :
    f ⟨min v.toInt.toNat (30 - 1), hk⟩ = ∑ b : Fin 30, Cert.GHM.ind w (BitVec.ofNat 32 b.val) * f b := by
  subst hvw
  exact (sum_ind_mul v h0 h1 f hk).symm

/-- The gather's start index at element (a0, b0, c0) is the bin of that element. -/
theorem gidx_elem (x t : (⟨S32x1024x1024, .f32⟩ : BufTy).Contents (Elt Ideal))
    (a0 : Fin 32) (b0 : Fin 1024) (c0 : Fin 1024) :
    val_main_v40 (F := Ideal) x t (ix4 a0 b0 c0 (0 : Fin 1))
      = Cert.GHM.binOf (x (ix3 a0 b0 c0)) (t (ix3 a0 b0 c0)) := by
  have hix : idx_main_v40 (ix4 a0 b0 c0 (0 : Fin 1)) = ix3 a0 b0 c0 := by
    funext d; match d with | ⟨0, _⟩ => rfl | ⟨1, _⟩ => rfl | ⟨2, _⟩ => rfl
  rw [val_main_v40_apply, hix, val_main_v39_apply, val_main_v36_apply, val_main_v38_apply, val_main_v35_apply,
    val_main_c_13_apply, val_main_v37_apply, val_main_c_14_apply, bin_elem]
  exact normalise_nonneg _ (binOf_range _ _).1

/-- The gathered weight at element i is the weight of i. -/
theorem wt_elem (x t : (⟨S32x1024x1024, .f32⟩ : BufTy).Contents (Elt Ideal))
    (a : (⟨S30, .f32⟩ : BufTy).Contents (Elt Ideal)) (i : S32x1024x1024.Idx) :
    val_main_v41 (F := Ideal) x t a i
      = Cert.GHM.wt (ι := S32x1024x1024.Idx) x t (fun b : Fin 30 => a (ix1 b)) i := by
  obtain ⟨a0, b0, c0, rfl⟩ : ∃ (a0 : Fin 32) (b0 : Fin 1024) (c0 : Fin 1024), i = ix3 a0 b0 c0 :=
    ⟨i 0, i 1, i 2, eq_ix3 i⟩
  unfold val_main_v41
  refine (gather_vec3_apply (N := 30) (A := 32) (B := 1024) (C := 1024) (by decide)
    gather_S30_S32x1024x1024x1_S32x1024x1024_n_0_n_n_0_3_1.wf _ _ a0 b0 c0).trans ?_
  rw [binw_elem]
  unfold Cert.GHM.wt
  generalize Cert.GHM.wBin (ι := S32x1024x1024.Idx) x t (fun b : Fin 30 => a (ix1 b)) = f
  exact pick_bin f _ _ (gidx_elem x t a0 b0 c0) (binOf_range _ _).1 (binOf_range _ _).2 _

end Cert.GHM.Ref

end
-- ==== Proof.RefValue.lean ====
/-
  The reference's value is the loss lossR.

  The program sums the gathered weights (0 plus the sum over every element), divides by N to get the mean weight,
  divides every weight by the mean, multiplies by the cross-entropy term, sums again (0 plus the sum over every
  element) and divides by N. With the gathered weight at an element equal to the element's weight and the
  cross-entropy stage equal to the cross-entropy term, this is lossR term by term; the only arithmetic used is
  0 + s = s.
-/
import proofs.«117752_j42417097016426_1_alg».proof.Proof.RefWeights
import Idealize.ShloMosaic.Lib.ValueIdx

noncomputable section

open scoped BigOperators

namespace Cert.GHM.Ref

open Cert.ReferenceIdeal Cert.ReferenceIdeal.Gen Idealize.ShloMosaic Idealize.ShloMosaic.ValueIdx Cert.ReferenceIdeal.ReadP

/-- The normalised, weighted cross-entropy stage at element j. -/
theorem term_elem (x t : (⟨S32x1024x1024, .f32⟩ : BufTy).Contents (Elt Ideal))
    (a : (⟨S30, .f32⟩ : BufTy).Contents (Elt Ideal)) (j : S32x1024x1024.Idx) :
    val_main_v55 (F := Ideal) x t a j
      = Ideal.div (Cert.GHM.wt (ι := S32x1024x1024.Idx) x t (fun b : Fin 30 => a (ix1 b)) j)
          (Ideal.div (∑ e', Cert.GHM.wt (ι := S32x1024x1024.Idx) x t (fun b : Fin 30 => a (ix1 b)) e') Cert.GHM.kTot)
        * Cert.GHM.bce (x j) (t j) := by
  have hsum : ∑ e' : S32x1024x1024.Idx, val_main_v41 (F := Ideal) x t a e'
      = ∑ e', Cert.GHM.wt (ι := S32x1024x1024.Idx) x t (fun b : Fin 30 => a (ix1 b)) e' :=
    Finset.sum_congr rfl fun e' _ => wt_elem x t a e'
  rw [val_main_v55_apply, val_main_v45_apply, val_main_v44_apply, val_main_v43_apply, val_main_v42_apply,
    val_main_cst_15_apply, val_main_cst_16_apply, bce_elem, wt_elem, hsum, Ideal.ofBits_def, Ideal.ofBits_def,
    Ideal.ofBits_zero_f32, zero_add]
  generalize (∑ e', Cert.GHM.wt (ι := S32x1024x1024.Idx) x t (fun b : Fin 30 => a (ix1 b)) e') = W
  generalize Cert.GHM.wt (ι := S32x1024x1024.Idx) x t (fun b : Fin 30 => a (ix1 b)) j = w
  rfl

/-- The reference's result is the loss lossR of the inputs. -/
theorem ref_value (x t : (⟨Cert.ReferenceIdeal.S32x1024x1024, .f32⟩ : BufTy).Contents (Elt Ideal))
    (a : (⟨Cert.ReferenceIdeal.S30, .f32⟩ : BufTy).Contents (Elt Ideal)) :
    Cert.ReferenceIdeal.ReadP.val_main_v57 (F := Ideal) x t a ValueIdx.ix0
      = Cert.GHM.lossR (ι := Cert.ReferenceIdeal.S32x1024x1024.Idx) x t (fun b : Fin 30 => a (ValueIdx.ix1 b)) := by
  have hsum : ∑ j : S32x1024x1024.Idx, val_main_v55 (F := Ideal) x t a j
      = ∑ j, Ideal.div (Cert.GHM.wt (ι := S32x1024x1024.Idx) x t (fun b : Fin 30 => a (ix1 b)) j)
          (Ideal.div (∑ e', Cert.GHM.wt (ι := S32x1024x1024.Idx) x t (fun b : Fin 30 => a (ix1 b)) e') Cert.GHM.kTot)
        * Cert.GHM.bce (x j) (t j) :=
    Finset.sum_congr rfl fun j _ => term_elem x t a j
  rw [val_main_v57_apply, val_main_v56_apply, val_main_cst_18_apply, val_main_cst_19_apply, hsum, Ideal.ofBits_def,
    Ideal.ofBits_def, Ideal.ofBits_zero_f32, zero_add]
  unfold Cert.GHM.lossR
  generalize (∑ j : S32x1024x1024.Idx, Ideal.div (Cert.GHM.wt (ι := S32x1024x1024.Idx) x t (fun b : Fin 30 => a (ix1 b)) j)
          (Ideal.div (∑ e', Cert.GHM.wt (ι := S32x1024x1024.Idx) x t (fun b : Fin 30 => a (ix1 b)) e') Cert.GHM.kTot)
        * Cert.GHM.bce (x j) (t j)) = L
  rfl

end Cert.GHM.Ref

end
-- ==== Proof.PreReal.lean ====
/-
  The precondition read back: when the printed predicate answers 1, every logit, every target and every accumulator
  entry is a real number, and every accumulator entry is non-negative.
-/
import proofs.«117752_j42417097016426_1_alg».proof.Pre_finite_inputs
import proofs.«117752_j42417097016426_1_alg».proof.Proof.Gen.Pre_finite_inputs
import Idealize.ShloMosaic.Lib.ReduceAll
import Idealize.ShloMosaic.PureOps.Ideal
import Idealize.ShloMosaic.PureOps.Ideal.Laws
import Idealize.ShloMosaic.Lib.IdealHost

noncomputable section

namespace Cert.GHM.Pre

open Idealize.ShloMosaic Cert.Pre_finite_inputs

instance : Subsingleton S_.Idx := ⟨fun a b => funext fun d => d.elim0⟩

variable [Cert.Pre_finite_inputs.Facts]

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt {y : EReal} (h : Ideal.cmp .olt (max y (-y)) (Ideal.ofBits .f32 0x7F800000#32) = 1#1) :
    ∃ r : ℝ, y = (r : EReal) := by
  rw [ofBits_inf] at h
  unfold Ideal.cmp at h
  have h' : max y (-y) < ⊤ := by
    by_contra hc
    simp [hc] at h
  induction y using EReal.rec with
  | bot => simp at h'
  | top => simp at h'
  | coe r => exact ⟨r, rfl⟩

/-- An extended real that compares at least the word 0 is non-negative. -/
theorem nonneg_of_oge {y : EReal} (h : Ideal.cmp .oge y (Ideal.ofBits .f32 0x00000000#32) = 1#1) : 0 ≤ y := by
  rw [Ideal.ofBits_zero_f32] at h
  unfold Ideal.cmp at h
  by_contra hc
  simp [hc] at h

theorem pre_real (x t : FVec Ideal Cert.Pre_finite_inputs.S32x1024x1024 .f32) (a : FVec Ideal Cert.Pre_finite_inputs.S30 .f32)
    (h : Cert.Pre_finite_inputs.fn (F := Ideal) x t a = fun _ => 1#1) :
    (∀ i, ∃ r : ℝ, x i = (r : EReal)) ∧ (∀ i, ∃ r : ℝ, t i = (r : EReal)) ∧ (∀ i, ∃ r : ℝ, a i = (r : EReal) ∧ 0 ≤ r) := by
  have e := congrFun h Idealize.ShloMosaic.ValueIdx.ix0
  dsimp only [Cert.Pre_finite_inputs.fn, Cert.Pre_finite_inputs.fn_part1] at e
  simp only [andi, IntOp.andi_eq_one] at e
  obtain ⟨⟨⟨hx, ht⟩, ha⟩, ha0⟩ := e
  refine ⟨fun i => ?_, fun i => ?_, fun i => ?_⟩
  · have := Host.reduce_andi_all _ _ _ _ _ hx i
    exact real_of_abs_lt this
  · exact real_of_abs_lt (Host.reduce_andi_all _ _ _ _ _ ht i)
  · obtain ⟨r, hr⟩ := real_of_abs_lt (Host.reduce_andi_all _ _ _ _ _ ha i)
    have h0 := Host.reduce_andi_all _ _ _ _ _ ha0 i
    have h0' : (0 : EReal) ≤ a i := nonneg_of_oge h0
    rw [hr] at h0'
    exact ⟨r, hr, by exact_mod_cast h0'⟩

end Cert.GHM.Pre

end
-- ==== Proof.lean ====
/-
  The certificate of the gradient-harmonised classification loss kernel against its reference.

  Both programs bin every element by its gradient magnitude |σ(x) − t| into thirty bins, count the bins, turn each
  non-empty bin's count and accumulator into a weight N / (½·acc + ½·count), and average the binary cross-entropy with
  those weights. The kernel does it in two pipelined passes over sixteen row blocks — a histogram pass, then a pass
  accumulating Σ weight × cross-entropy and Σ weight — and returns the quotient of the two sums; the reference divides
  every weight by the mean weight and the weighted sum by the element count. Over the extended reals the kernel's
  result is the specification's `lossK` and the reference's its `lossR` of the same arguments, whatever the arguments;
  the two agree when the logits and targets are finite and the accumulators finite and non-negative, which the
  precondition states: then every weight is a positive real, so is their sum, and
  (Σ w·bce) / Σ w = (Σ (w / ((Σ w)/N))·bce) / N.

  The three frames are the generated ones (the reference's is its run with the result dropped); the ideal pass
  rewrote nothing, so `preserves` is trivial.
-/
import proofs.«117752_j42417097016426_1_alg».proof.Defs
import proofs.«117752_j42417097016426_1_alg».proof.Proof.Gen.Kernel
import proofs.«117752_j42417097016426_1_alg».proof.Proof.Gen.Kernel.Skeleton
import proofs.«117752_j42417097016426_1_alg».proof.Proof.Gen.Kernel.Launch
import proofs.«117752_j42417097016426_1_alg».proof.Proof.Gen.Kernel.Points
import proofs.«117752_j42417097016426_1_alg».proof.Proof.Gen.Kernel.Frame
import proofs.«117752_j42417097016426_1_alg».proof.Proof.Gen.KernelIdeal
import proofs.«117752_j42417097016426_1_alg».proof.Proof.Gen.KernelIdeal.Skeleton
import proofs.«117752_j42417097016426_1_alg».proof.Proof.Gen.KernelIdeal.Launch
import proofs.«117752_j42417097016426_1_alg».proof.Proof.Gen.KernelIdeal.Points
import proofs.«117752_j42417097016426_1_alg».proof.Proof.Gen.KernelIdeal.Frame
import proofs.«117752_j42417097016426_1_alg».proof.Proof.Gen.ReferenceIdeal
import proofs.«117752_j42417097016426_1_alg».proof.Proof.Gen.Pre_finite_inputs
import proofs.«117752_j42417097016426_1_alg».proof.Proof.KRun
import proofs.«117752_j42417097016426_1_alg».proof.Proof.KCount
import proofs.«117752_j42417097016426_1_alg».proof.Proof.RefValue
import proofs.«117752_j42417097016426_1_alg».proof.Proof.LossLaw
import proofs.«117752_j42417097016426_1_alg».proof.Proof.PreReal
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- At `Ideal` the kernel's scalar ends at `lossK` and the reference's at `lossR` of arguments that agree; under the
    precondition the two are one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W11 m ρ c (Proc.devRef .tc Cert.KernelIdeal.main_v25), Cert.KernelIdeal.KRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨hx, ht, ha⟩ := @Cert.GHM.Pre.pre_real Cert.Pre_finite_inputs.Gen.facts _ _ _ (hpre c)
  rw [Cert.ReferenceIdeal.ReadP.val_main_v57_eq, (hagree c).1, (hagree c).2.1, (hagree c).2.2]
  funext i
  rw [eq_ix0 i, Cert.GHM.Ref.ref_value]
  refine Eq.trans ?_ (Cert.KernelIdeal.KValue.kernel_value m ρ c (Cert.KernelIdeal.KCount.hcnt m ρ c)).symm
  haveI : Nonempty Cert.ReferenceIdeal.S32x1024x1024.Idx := ⟨ix3 (0 : Fin 32) (0 : Fin 1024) (0 : Fin 1024)⟩
  exact (Cert.GHM.loss_eq _ _ _ hx ht (fun b => ha (ix1 b))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
